-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x64 : Shape := ⟨2, ![128, 64]⟩
abbrev S64 : Shape := ⟨1, ![64]⟩
abbrev S64x64 : Shape := ⟨2, ![64, 64]⟩
abbrev S64x10 : Shape := ⟨2, ![64, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_arg13 : FVec F S10 .f32) (main_v48 : IVec S_ 1) (main_v49 : FVec F S64x10 .f32) (main_v50 : FVec F S64x10 .f32) : IVec S_ 1 :=
  let main_v51 : IVec S64x10 1 := cmpf .olt main_v49 main_v50
  let main_c_19 : IVec S_ 1 := constantI S_ 1 1#1
  let main_v52 : IVec S_ 1 := (fun x v => Host.reduce IntOp.andi x v reducesTo_S64x10_S_d0_1 h_S_) main_v51 main_c_19
  let main_v53 : IVec S_ 1 := andi main_v48 main_v52
  let main_v54 : FVec F S10 .f32 := Host.absf main_arg13
  let main_cst_20 : FVec F S_ .f32 := constant S_ .f32 0x7F800000#32
  let main_v55 : FVec F S10 .f32 := broadcastInDim S10 ![] bcast_S_S10 main_cst_20
  let main_v56 : IVec S10 1 := cmpf .olt main_v54 main_v55
  let main_c_21 : IVec S_ 1 := constantI S_ 1 1#1
  let main_v57 : IVec S_ 1 := (fun x v => Host.reduce IntOp.andi x v reducesTo_S10_S_d0 h_S_) main_v56 main_c_21
  let main_v58 : IVec S_ 1 := andi main_v53 main_v57
  main_v58

def fn_part2 {F : FTy → Type} [FloatOps F] (main_arg9 : FVec F S64 .f32) (main_arg10 : FVec F S64x64 .f32) (main_arg11 : FVec F S64 .f32) (main_arg12 : FVec F S64x10 .f32) (main_arg13 : FVec F S10 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg10
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x10 .f32 := Host.absf main_arg12
  let main_cst_18 : FVec F S_ .f32 := constant S_ .f32 0x7F800000#32
  let main_v50 : FVec F S64x10 .f32 := broadcastInDim S64x10 ![] bcast_S_S64x10 main_cst_18
  fn_part3 (F := F) main_arg13 main_v48 main_v49 main_v50

def fn_part1 {F : FTy → Type} [FloatOps F] (main_arg6 : FVec F S64x64 .f32) (main_arg7 : FVec F S64 .f32) (main_arg8 : FVec F S64x64 .f32) (main_arg9 : FVec F S64 .f32) (main_arg10 : FVec F S64x64 .f32) (main_arg11 : FVec F S64 .f32) (main_arg12 : FVec F S64x10 .f32) (main_arg13 : FVec F S10 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S100000x128 .f32) (main_arg1 : IVec S1600000 32) (main_arg2 : IVec S1600000 32) (main_arg3 : FVec F S1600000 .f32) (main_arg4 : FVec F S128x64 .f32) (main_arg5 : FVec F S64 .f32) (main_arg6 : FVec F S64x64 .f32) (main_arg7 : FVec F S64 .f32) (main_arg8 : FVec F S64x64 .f32) (main_arg9 : FVec F S64 .f32) (main_arg10 : FVec F S64x64 .f32) (main_arg11 : FVec F S64 .f32) (main_arg12 : FVec F S64x10 .f32) (main_arg13 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x64 .f32 := Host.absf main_arg4
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_v13 main_v16
-- ==== Kernel.lean ====
abbrev S100000x128 : Shape := ⟨2, ![100000, 128]⟩
abbrev S1600000 : Shape := ⟨1, ![1600000]⟩
abbrev S128x64 : Shape := ⟨2, ![128, 64]⟩
abbrev S64 : Shape := ⟨1, ![64]⟩
abbrev S64x64 : Shape := ⟨2, ![64, 64]⟩
abbrev S64x10 : Shape := ⟨2, ![64, 10]⟩
abbrev S10 : Shape := ⟨1, ![10]⟩
abbrev S_ : Shape := ⟨0, ![]⟩
abbrev S100352x128 : Shape := ⟨2, ![100352, 128]⟩
abbrev S100352x64 : Shape := ⟨2, ![100352, 64]⟩
abbrev S1024x128 : Shape := ⟨2, ![1024, 128]⟩
abbrev S1024x64 : Shape := ⟨2, ![1024, 64]⟩
abbrev S1x64 : Shape := ⟨2, ![1, 64]⟩
abbrev S100000x64 : Shape := ⟨2, ![100000, 64]⟩
abbrev S1600000x1 : Shape := ⟨2, ![1600000, 1]⟩
abbrev S1600000x64 : Shape := ⟨2, ![1600000, 64]⟩
abbrev S100352x10 : Shape := ⟨2, ![100352, 10]⟩
abbrev S1024x10 : Shape := ⟨2, ![1024, 10]⟩
abbrev S1x10 : Shape := ⟨2, ![1, 10]⟩
abbrev S100000x10 : Shape := ⟨2, ![100000, 10]⟩
abbrev S1600000x10 : Shape := ⟨2, ![1600000, 10]⟩

abbrev nBuf : Space → Nat
  | .hbm => 131
  | .vmem => 30
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S1600000, .f32⟩
  | 4 => ⟨S128x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S64x64, .f32⟩
  | 11 => ⟨S64, .f32⟩
  | 12 => ⟨S64x10, .f32⟩
  | 13 => ⟨S10, .f32⟩
  | 14 => ⟨S_, .i32⟩
  | 15 => ⟨S_, .f32⟩
  | 16 => ⟨S100352x128, .f32⟩
  | 17 => ⟨S100352x64, .f32⟩
  | 18 => ⟨S100000x64, .f32⟩
  | 19 => ⟨S_, .i32⟩
  | 20 => ⟨S1600000, .i32⟩
  | 21 => ⟨S1600000, .i1⟩
  | 22 => ⟨S_, .i32⟩
  | 23 => ⟨S1600000, .i32⟩
  | 24 => ⟨S1600000, .i32⟩
  | 25 => ⟨S1600000, .i32⟩
  | 26 => ⟨S1600000x1, .i32⟩
  | 27 => ⟨S1600000x64, .f32⟩
  | 28 => ⟨S1600000x1, .f32⟩
  | 29 => ⟨S1600000x64, .f32⟩
  | 30 => ⟨S1600000x64, .f32⟩
  | 31 => ⟨S_, .f32⟩
  | 32 => ⟨S100000x64, .f32⟩
  | 33 => ⟨S1600000x1, .i32⟩
  | 34 => ⟨S100000x64, .f32⟩
  | 35 => ⟨S_, .f32⟩
  | 36 => ⟨S100000x64, .f32⟩
  | 37 => ⟨S100000x64, .f32⟩
  | 38 => ⟨S_, .i32⟩
  | 39 => ⟨S_, .f32⟩
  | 40 => ⟨S100352x64, .f32⟩
  | 41 => ⟨S100352x64, .f32⟩
  | 42 => ⟨S100000x64, .f32⟩
  | 43 => ⟨S_, .i32⟩
  | 44 => ⟨S1600000, .i32⟩
  | 45 => ⟨S1600000, .i1⟩
  | 46 => ⟨S_, .i32⟩
  | 47 => ⟨S1600000, .i32⟩
  | 48 => ⟨S1600000, .i32⟩
  | 49 => ⟨S1600000, .i32⟩
  | 50 => ⟨S1600000x1, .i32⟩
  | 51 => ⟨S1600000x64, .f32⟩
  | 52 => ⟨S1600000x1, .f32⟩
  | 53 => ⟨S1600000x64, .f32⟩
  | 54 => ⟨S1600000x64, .f32⟩
  | 55 => ⟨S_, .f32⟩
  | 56 => ⟨S100000x64, .f32⟩
  | 57 => ⟨S1600000x1, .i32⟩
  | 58 => ⟨S100000x64, .f32⟩
  | 59 => ⟨S_, .f32⟩
  | 60 => ⟨S100000x64, .f32⟩
  | 61 => ⟨S100000x64, .f32⟩
  | 62 => ⟨S_, .i32⟩
  | 63 => ⟨S_, .f32⟩
  | 64 => ⟨S100352x64, .f32⟩
  | 65 => ⟨S100352x64, .f32⟩
  | 66 => ⟨S100000x64, .f32⟩
  | 67 => ⟨S_, .i32⟩
  | 68 => ⟨S1600000, .i32⟩
  | 69 => ⟨S1600000, .i1⟩
  | 70 => ⟨S_, .i32⟩
  | 71 => ⟨S1600000, .i32⟩
  | 72 => ⟨S1600000, .i32⟩
  | 73 => ⟨S1600000, .i32⟩
  | 74 => ⟨S1600000x1, .i32⟩
  | 75 => ⟨S1600000x64, .f32⟩
  | 76 => ⟨S1600000x1, .f32⟩
  | 77 => ⟨S1600000x64, .f32⟩
  | 78 => ⟨S1600000x64, .f32⟩
  | 79 => ⟨S_, .f32⟩
  | 80 => ⟨S100000x64, .f32⟩
  | 81 => ⟨S1600000x1, .i32⟩
  | 82 => ⟨S100000x64, .f32⟩
  | 83 => ⟨S_, .f32⟩
  | 84 => ⟨S100000x64, .f32⟩
  | 85 => ⟨S100000x64, .f32⟩
  | 86 => ⟨S_, .i32⟩
  | 87 => ⟨S_, .f32⟩
  | 88 => ⟨S100352x64, .f32⟩
  | 89 => ⟨S100352x64, .f32⟩
  | 90 => ⟨S100000x64, .f32⟩
  | 91 => ⟨S_, .i32⟩
  | 92 => ⟨S1600000, .i32⟩
  | 93 => ⟨S1600000, .i1⟩
  | 94 => ⟨S_, .i32⟩
  | 95 => ⟨S1600000, .i32⟩
  | 96 => ⟨S1600000, .i32⟩
  | 97 => ⟨S1600000, .i32⟩
  | 98 => ⟨S1600000x1, .i32⟩
  | 99 => ⟨S1600000x64, .f32⟩
  | 100 => ⟨S1600000x1, .f32⟩
  | 101 => ⟨S1600000x64, .f32⟩
  | 102 => ⟨S1600000x64, .f32⟩
  | 103 => ⟨S_, .f32⟩
  | 104 => ⟨S100000x64, .f32⟩
  | 105 => ⟨S1600000x1, .i32⟩
  | 106 => ⟨S100000x64, .f32⟩
  | 107 => ⟨S_, .f32⟩
  | 108 => ⟨S100000x64, .f32⟩
  | 109 => ⟨S100000x64, .f32⟩
  | 110 => ⟨S_, .i32⟩
  | 111 => ⟨S_, .f32⟩
  | 112 => ⟨S100352x64, .f32⟩
  | 113 => ⟨S100352x10, .f32⟩
  | 114 => ⟨S100000x10, .f32⟩
  | 115 => ⟨S_, .i32⟩
  | 116 => ⟨S1600000, .i32⟩
  | 117 => ⟨S1600000, .i1⟩
  | 118 => ⟨S_, .i32⟩
  | 119 => ⟨S1600000, .i32⟩
  | 120 => ⟨S1600000, .i32⟩
  | 121 => ⟨S1600000, .i32⟩
  | 122 => ⟨S1600000x1, .i32⟩
  | 123 => ⟨S1600000x10, .f32⟩
  | 124 => ⟨S1600000x1, .f32⟩
  | 125 => ⟨S1600000x10, .f32⟩
  | 126 => ⟨S1600000x10, .f32⟩
  | 127 => ⟨S_, .f32⟩
  | _ => ⟨S100000x128, .f32⟩

abbrev hbmTy0_1 (i : Nat) : BufTy := match i % 128 with
  | 0 => ⟨S100000x10, .f32⟩
  | 1 => ⟨S1600000x1, .i32⟩
  | 2 => ⟨S100000x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S1024x128, .f32⟩
  | .local _ .vmem, ⟨1, _⟩ => ⟨S1024x128, .f32⟩
  | .local _ .vmem, ⟨2, _⟩ => ⟨S128x64, .f32⟩
  | .local _ .vmem, ⟨3, _⟩ => ⟨S64, .f32⟩
  | .local _ .vmem, ⟨4, _⟩ => ⟨S1024x64, .f32⟩
  | .local _ .vmem, ⟨5, _⟩ => ⟨S1024x64, .f32⟩
  | .local _ .vmem, ⟨6, _⟩ => ⟨S1024x64, .f32⟩
  | .local _ .vmem, ⟨7, _⟩ => ⟨S1024x64, .f32⟩
  | .local _ .vmem, ⟨8, _⟩ => ⟨S64x64, .f32⟩
  | .local _ .vmem, ⟨9, _⟩ => ⟨S64, .f32⟩
  | .local _ .vmem, ⟨10, _⟩ => ⟨S1024x64, .f32⟩
  | .local _ .vmem, ⟨11, _⟩ => ⟨S1024x64, .f32⟩
  | .local _ .vmem, ⟨12, _⟩ => ⟨S1024x64, .f32⟩
  | .local _ .vmem, ⟨13, _⟩ => ⟨S1024x64, .f32⟩
  | .local _ .vmem, ⟨14, _⟩ => ⟨S64x64, .f32⟩
  | .local _ .vmem, ⟨15, _⟩ => ⟨S64, .f32⟩
  | .local _ .vmem, ⟨16, _⟩ => ⟨S1024x64, .f32⟩
  | .local _ .vmem, ⟨17, _⟩ => ⟨S1024x64, .f32⟩
  | .local _ .vmem, ⟨18, _⟩ => ⟨S1024x64, .f32⟩
  | .local _ .vmem, ⟨19, _⟩ => ⟨S1024x64, .f32⟩
  | .local _ .vmem, ⟨20, _⟩ => ⟨S64x64, .f32⟩
  | .local _ .vmem, ⟨21, _⟩ => ⟨S64, .f32⟩
  | .local _ .vmem, ⟨22, _⟩ => ⟨S1024x64, .f32⟩
  | .local _ .vmem, ⟨23, _⟩ => ⟨S1024x64, .f32⟩
  | .local _ .vmem, ⟨24, _⟩ => ⟨S1024x64, .f32⟩
  | .local _ .vmem, ⟨25, _⟩ => ⟨S1024x64, .f32⟩
  | .local _ .vmem, ⟨26, _⟩ => ⟨S64x10, .f32⟩
  | .local _ .vmem, ⟨27, _⟩ => ⟨S10, .f32⟩
  | .local _ .vmem, ⟨28, _⟩ => ⟨S1024x10, .f32⟩
  | .local _ .vmem, ⟨29, _⟩ => ⟨S1024x10, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_call0_v0 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_c_0 : Ref sig .tc := ⟨.hbm, 19, rfl⟩
abbrev main_v3 : Ref sig .tc := ⟨.hbm, 20, rfl⟩
abbrev main_v4 : Ref sig .tc := ⟨.hbm, 21, rfl⟩
abbrev main_c_1 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_call1_cst : Ref sig .tc := ⟨.hbm, 35, rfl⟩
abbrev main_call1_v0 : Ref sig .tc := ⟨.hbm, 36, rfl⟩
abbrev main_v16 : Ref sig .tc := ⟨.hbm, 37, rfl⟩
abbrev main_c_2 : Ref sig .tc := ⟨.hbm, 38, rfl⟩
abbrev main_call2_v0 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_c_3 : Ref sig .tc := ⟨.hbm, 43, rfl⟩
abbrev main_v20 : Ref sig .tc := ⟨.hbm, 44, rfl⟩
abbrev main_v21 : Ref sig .tc := ⟨.hbm, 45, rfl⟩
abbrev main_c_4 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_cst_5 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_call3_cst : Ref sig .tc := ⟨.hbm, 59, rfl⟩
abbrev main_call3_v0 : Ref sig .tc := ⟨.hbm, 60, rfl⟩
abbrev main_v33 : Ref sig .tc := ⟨.hbm, 61, rfl⟩
abbrev main_c_6 : Ref sig .tc := ⟨.hbm, 62, rfl⟩
abbrev main_call4_v0 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_c_7 : Ref sig .tc := ⟨.hbm, 67, rfl⟩
abbrev main_v37 : Ref sig .tc := ⟨.hbm, 68, rfl⟩
abbrev main_v38 : Ref sig .tc := ⟨.hbm, 69, rfl⟩
abbrev main_c_8 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_cst_9 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_call5_cst : Ref sig .tc := ⟨.hbm, 83, rfl⟩
abbrev main_call5_v0 : Ref sig .tc := ⟨.hbm, 84, rfl⟩
abbrev main_v50 : Ref sig .tc := ⟨.hbm, 85, rfl⟩
abbrev main_c_10 : Ref sig .tc := ⟨.hbm, 86, rfl⟩
abbrev main_call6_v0 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_c_11 : Ref sig .tc := ⟨.hbm, 91, rfl⟩
abbrev main_v54 : Ref sig .tc := ⟨.hbm, 92, rfl⟩
abbrev main_v55 : Ref sig .tc := ⟨.hbm, 93, rfl⟩
abbrev main_c_12 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_cst_13 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_call7_cst : Ref sig .tc := ⟨.hbm, 107, rfl⟩
abbrev main_call7_v0 : Ref sig .tc := ⟨.hbm, 108, rfl⟩
abbrev main_v67 : Ref sig .tc := ⟨.hbm, 109, rfl⟩
abbrev main_c_14 : Ref sig .tc := ⟨.hbm, 110, rfl⟩
abbrev main_call8_v0 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_c_15 : Ref sig .tc := ⟨.hbm, 115, rfl⟩
abbrev main_v71 : Ref sig .tc := ⟨.hbm, 116, rfl⟩
abbrev main_v72 : Ref sig .tc := ⟨.hbm, 117, rfl⟩
abbrev main_c_16 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_cst_17 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg3_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem3_1 : DmaSem sig := 29

abbrev nD : Nat := 1
abbrev τ : Topo := Topo.v7x

variable {F : FTy → Type} [FloatOps F]

abbrev grid0 : Pipeline.Grid := ⟨1, ![98], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![98], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![98], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![98], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S1024x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![98], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1024x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x10 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S10 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S1024x10 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  pads_S100000x128_S100352x128_03520_000 : S100000x128.Pads (![0, 0] : Fin 2 → Nat) ![352, 0] ![0, 0] S100352x128
  h_S_ : 0 < S_.numel
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S1024x64 : S1x64.Broadcasts S1024x64
  inb_S1024x64_S1024x64_0_0 : ∀ a, (![0, 0] : Fin 2 → Nat) a + S1024x64.size a ≤ S1024x64.size a
  h_S1024x64 : 0 < S1024x64.numel
  slices_S100352x64_S100000x64_0_0 : S100352x64.Slices ![0, 0] S100000x64
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  pads_S100000x64_S100352x64_03520_000 : S100000x64.Pads (![0, 0] : Fin 2 → Nat) ![352, 0] ![0, 0] S100352x64
  shapeCasts_S1024x64_S1024x64 : S1024x64.ShapeCasts S1024x64
  inb_S64x64_S64x64_0_0 : ∀ a, (![0, 0] : Fin 2 → Nat) a + S64x64.size a ≤ S64x64.size a
  h_S64x64 : 0 < S64x64.numel
  inb_S64x10_S64x10_0_0 : ∀ a, (![0, 0] : Fin 2 → Nat) a + S64x10.size a ≤ S64x10.size a
  h_S64x10 : 0 < S64x10.numel
  inb_S10_S10_0 : ∀ a, (![0] : Fin 1 → Nat) a + S10.size a ≤ S10.size a
  h_S10 : 0 < S10.numel
  shapeCasts_S10_S1x10 : S10.ShapeCasts S1x10
  broadcasts_S1x10_S1024x10 : S1x10.Broadcasts S1024x10
  inb_S1024x10_S1024x10_0_0 : ∀ a, (![0, 0] : Fin 2 → Nat) a + S1024x10.size a ≤ S1024x10.size a
  h_S1024x10 : 0 < S1024x10.numel
  slices_S100352x10_S100000x10_0_0 : S100352x10.Slices ![0, 0] S100000x10
  bcast_S1600000x1_S1600000x10_0_1 : S1600000x1.BroadcastsInDim S1600000x10 (![0, 1] : Fin 2 → Fin S1600000x10.rank)
  bcast_S_S100000x10 : S_.BroadcastsInDim S100000x10 (![] : Fin 0 → Fin S100000x10.rank)
  dot_S1024x128_S128x64_S1024x64_1_0_0_1_n_n_wf : DotDims.WF S1024x128 S128x64 S1024x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S1024x64_S64x64_S1024x64_1_0_0_1_n_n_wf : DotDims.WF S1024x64 S64x64 S1024x64 [1] [0] [0] [1] [] []
  dot_S1024x64_S64x10_S1024x10_1_0_0_1_n_n_wf : DotDims.WF S1024x64 S64x10 S1024x10 [1] [0] [0] [1] [] []
  gather_S100000x10_S1600000x1_S1600000x10_1_0_n_n_0_1_110_wf : GatherDims.WF S100000x10 S1600000x1 S1600000x10 [1] [0] [] [0] [] 1 ![1, 10]
  scatter_S100000x10_S1600000x1_S1600000x10_1_0_0_1_wf : ScatterDims.WF S100000x10 S1600000x1 S1600000x10 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S100352x128.size a
  hwx0_0 : ∀ i : grid0.Coords, EltTy.bits .f32 = 32 ∨ (Rect.block (s := S100352x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S100352x64.size a
  hwx0_3 : ∀ i : grid0.Coords, EltTy.bits .f32 = 32 ∨ (Rect.block (s := S100352x64) S1024x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x64.size a ≤ S100352x64.size a
  hwx1_0 : ∀ i : grid1.Coords, EltTy.bits .f32 = 32 ∨ (Rect.block (s := S100352x64) S1024x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x64.size a ≤ S100352x64.size a
  hwx1_3 : ∀ i : grid1.Coords, EltTy.bits .f32 = 32 ∨ (Rect.block (s := S100352x64) S1024x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x64.size a ≤ S100352x64.size a
  hwx2_0 : ∀ i : grid2.Coords, EltTy.bits .f32 = 32 ∨ (Rect.block (s := S100352x64) S1024x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64.size a ≤ S64.size a
  hwx2_2 : ∀ i : grid2.Coords, EltTy.bits .f32 = 32 ∨ (Rect.block (s := S64) S64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x64.size a ≤ S100352x64.size a
  hwx2_3 : ∀ i : grid2.Coords, EltTy.bits .f32 = 32 ∨ (Rect.block (s := S100352x64) S1024x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x64.size a ≤ S100352x64.size a
  hwx3_0 : ∀ i : grid3.Coords, EltTy.bits .f32 = 32 ∨ (Rect.block (s := S100352x64) S1024x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64.size a ≤ S64.size a
  hwx3_2 : ∀ i : grid3.Coords, EltTy.bits .f32 = 32 ∨ (Rect.block (s := S64) S64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x64.size a ≤ S100352x64.size a
  hwx3_3 : ∀ i : grid3.Coords, EltTy.bits .f32 = 32 ∨ (Rect.block (s := S100352x64) S1024x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x64.size a ≤ S100352x64.size a
  hwx4_0 : ∀ i : grid4.Coords, EltTy.bits .f32 = 32 ∨ (Rect.block (s := S100352x64) S1024x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x10.size a ≤ S64x10.size a
  hwx4_1 : ∀ i : grid4.Coords, EltTy.bits .f32 = 32 ∨ (Rect.block (s := S64x10) S64x10.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S10.size a ≤ S10.size a
  hwx4_2 : ∀ i : grid4.Coords, EltTy.bits .f32 = 32 ∨ (Rect.block (s := S10) S10.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1024x10.size a ≤ S100352x10.size a
  hwx4_3 : ∀ i : grid4.Coords, EltTy.bits .f32 = 32 ∨ (Rect.block (s := S100352x10) S1024x10.size (cc4_transform_3 i) (hinb4_3 i)).WholeWords (EltTy.packing .f32)

variable [Facts₀]

def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf
def dot_S1024x64_S64x10_S1024x10_1_0_0_1_n_n : DotDims S1024x64 S64x10 S1024x10 where
  lhsContracting := [1]
  rhsContracting := [0]
  lhsNonContracting := [0]
  rhsNonContracting := [1]
  lhsBatch := []
  rhsBatch := []
  wf := dot_S1024x64_S64x10_S1024x10_1_0_0_1_n_n_wf
def gather_S100000x10_S1600000x1_S1600000x10_1_0_n_n_0_1_110 : GatherDims S100000x10 S1600000x1 S1600000x10 where
  offsetDims := [1]
  collapsedSliceDims := [0]
  operandBatchingDims := []
  startIndicesBatchingDims := []
  startIndexMap := [0]
  indexVectorDim := 1
  sliceSizes := ![1, 10]
  wf := gather_S100000x10_S1600000x1_S1600000x10_1_0_n_n_0_1_110_wf
def scatter_S100000x10_S1600000x1_S1600000x10_1_0_0_1 : ScatterDims S100000x10 S1600000x1 S1600000x10 where
  updateWindowDims := [1]
  insertedWindowDims := [0]
  scatterDimsToOperandDims := [0]
  indexVectorDim := 1
  wf := scatter_S100000x10_S1600000x1_S1600000x10_1_0_0_1_wf

abbrev win0_0 : Pipeline.Window sig grid0 :=
  Pipeline.Window.ofSpec (Memref.whole main_v0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v17) S1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v18) S1024x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v34) S1024x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v35) S1024x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v51) S1024x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg10) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg11) S64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v52) S1024x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v68) S1024x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg12) S64x10.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg13) S10.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v69) S1024x10.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x64 : Shape := ⟨2, ![128, 64]⟩
abbrev S64 : Shape := ⟨1, ![64]⟩
abbrev S64x64 : Shape := ⟨2, ![64, 64]⟩
abbrev S64x10 : Shape := ⟨2, ![64, 10]⟩
abbrev S10 : Shape := ⟨1, ![10]⟩
abbrev S100000x64 : Shape := ⟨2, ![100000, 64]⟩
abbrev S1x64 : Shape := ⟨2, ![1, 64]⟩
abbrev S_ : Shape := ⟨0, ![]⟩
abbrev S1600000x1 : Shape := ⟨2, ![1600000, 1]⟩
abbrev S1600000x64 : Shape := ⟨2, ![1600000, 64]⟩
abbrev S100000x10 : Shape := ⟨2, ![100000, 10]⟩
abbrev S1x10 : Shape := ⟨2, ![1, 10]⟩
abbrev S1600000x10 : Shape := ⟨2, ![1600000, 10]⟩

abbrev nBuf : Space → Nat
  | .hbm => 126
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64x10, .f32⟩
  | .hbm, ⟨13, _⟩ => ⟨S10, .f32⟩
  | .hbm, ⟨14, _⟩ => ⟨S100000x64, .f32⟩
  | .hbm, ⟨15, _⟩ => ⟨S1x64, .f32⟩
  | .hbm, ⟨16, _⟩ => ⟨S100000x64, .f32⟩
  | .hbm, ⟨17, _⟩ => ⟨S100000x64, .f32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x64, .f32⟩
  | .hbm, ⟨27, _⟩ => ⟨S1600000x1, .f32⟩
  | .hbm, ⟨28, _⟩ => ⟨S1600000x64, .f32⟩
  | .hbm, ⟨29, _⟩ => ⟨S1600000x64, .f32⟩
  | .hbm, ⟨30, _⟩ => ⟨S_, .f32⟩
  | .hbm, ⟨31, _⟩ => ⟨S100000x64, .f32⟩
  | .hbm, ⟨32, _⟩ => ⟨S1600000x1, .i32⟩
  | .hbm, ⟨33, _⟩ => ⟨S100000x64, .f32⟩
  | .hbm, ⟨34, _⟩ => ⟨S_, .f32⟩
  | .hbm, ⟨35, _⟩ => ⟨S100000x64, .f32⟩
  | .hbm, ⟨36, _⟩ => ⟨S100000x64, .f32⟩
  | .hbm, ⟨37, _⟩ => ⟨S100000x64, .f32⟩
  | .hbm, ⟨38, _⟩ => ⟨S1x64, .f32⟩
  | .hbm, ⟨39, _⟩ => ⟨S100000x64, .f32⟩
  | .hbm, ⟨40, _⟩ => ⟨S100000x64, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x64, .f32⟩
  | .hbm, ⟨50, _⟩ => ⟨S1600000x1, .f32⟩
  | .hbm, ⟨51, _⟩ => ⟨S1600000x64, .f32⟩
  | .hbm, ⟨52, _⟩ => ⟨S1600000x64, .f32⟩
  | .hbm, ⟨53, _⟩ => ⟨S_, .f32⟩
  | .hbm, ⟨54, _⟩ => ⟨S100000x64, .f32⟩
  | .hbm, ⟨55, _⟩ => ⟨S1600000x1, .i32⟩
  | .hbm, ⟨56, _⟩ => ⟨S100000x64, .f32⟩
  | .hbm, ⟨57, _⟩ => ⟨S_, .f32⟩
  | .hbm, ⟨58, _⟩ => ⟨S100000x64, .f32⟩
  | .hbm, ⟨59, _⟩ => ⟨S100000x64, .f32⟩
  | .hbm, ⟨60, _⟩ => ⟨S100000x64, .f32⟩
  | .hbm, ⟨61, _⟩ => ⟨S1x64, .f32⟩
  | .hbm, ⟨62, _⟩ => ⟨S100000x64, .f32⟩
  | .hbm, ⟨63, _⟩ => ⟨S100000x64, .f32⟩
  | .hbm, ⟨64, _⟩ => ⟨S_, .i32⟩
  | .hbm, ⟨65, _⟩ => ⟨S1600000, .i32⟩
  | .hbm, ⟨66, _⟩ => ⟨S1600000, .i1⟩
  | .hbm, ⟨67, _⟩ => ⟨S_, .i32⟩
  | .hbm, ⟨68, _⟩ => ⟨S1600000, .i32⟩
  | .hbm, ⟨69, _⟩ => ⟨S1600000, .i32⟩
  | .hbm, ⟨70, _⟩ => ⟨S1600000, .i32⟩
  | .hbm, ⟨71, _⟩ => ⟨S1600000x1, .i32⟩
  | .hbm, ⟨72, _⟩ => ⟨S1600000x64, .f32⟩
  | .hbm, ⟨73, _⟩ => ⟨S1600000x1, .f32⟩
  | .hbm, ⟨74, _⟩ => ⟨S1600000x64, .f32⟩
  | .hbm, ⟨75, _⟩ => ⟨S1600000x64, .f32⟩
  | .hbm, ⟨76, _⟩ => ⟨S_, .f32⟩
  | .hbm, ⟨77, _⟩ => ⟨S100000x64, .f32⟩
  | .hbm, ⟨78, _⟩ => ⟨S1600000x1, .i32⟩
  | .hbm, ⟨79, _⟩ => ⟨S100000x64, .f32⟩
  | .hbm, ⟨80, _⟩ => ⟨S_, .f32⟩
  | .hbm, ⟨81, _⟩ => ⟨S100000x64, .f32⟩
  | .hbm, ⟨82, _⟩ => ⟨S100000x64, .f32⟩
  | .hbm, ⟨83, _⟩ => ⟨S100000x64, .f32⟩
  | .hbm, ⟨84, _⟩ => ⟨S1x64, .f32⟩
  | .hbm, ⟨85, _⟩ => ⟨S100000x64, .f32⟩
  | .hbm, ⟨86, _⟩ => ⟨S100000x64, .f32⟩
  | .hbm, ⟨87, _⟩ => ⟨S_, .i32⟩
  | .hbm, ⟨88, _⟩ => ⟨S1600000, .i32⟩
  | .hbm, ⟨89, _⟩ => ⟨S1600000, .i1⟩
  | .hbm, ⟨90, _⟩ => ⟨S_, .i32⟩
  | .hbm, ⟨91, _⟩ => ⟨S1600000, .i32⟩
  | .hbm, ⟨92, _⟩ => ⟨S1600000, .i32⟩
  | .hbm, ⟨93, _⟩ => ⟨S1600000, .i32⟩
  | .hbm, ⟨94, _⟩ => ⟨S1600000x1, .i32⟩
  | .hbm, ⟨95, _⟩ => ⟨S1600000x64, .f32⟩
  | .hbm, ⟨96, _⟩ => ⟨S1600000x1, .f32⟩
  | .hbm, ⟨97, _⟩ => ⟨S1600000x64, .f32⟩
  | .hbm, ⟨98, _⟩ => ⟨S1600000x64, .f32⟩
  | .hbm, ⟨99, _⟩ => ⟨S_, .f32⟩
  | .hbm, ⟨100, _⟩ => ⟨S100000x64, .f32⟩
  | .hbm, ⟨101, _⟩ => ⟨S1600000x1, .i32⟩
  | .hbm, ⟨102, _⟩ => ⟨S100000x64, .f32⟩
  | .hbm, ⟨103, _⟩ => ⟨S_, .f32⟩
  | .hbm, ⟨104, _⟩ => ⟨S100000x64, .f32⟩
  | .hbm, ⟨105, _⟩ => ⟨S100000x64, .f32⟩
  | .hbm, ⟨106, _⟩ => ⟨S100000x10, .f32⟩
  | .hbm, ⟨107, _⟩ => ⟨S1x10, .f32⟩
  | .hbm, ⟨108, _⟩ => ⟨S100000x10, .f32⟩
  | .hbm, ⟨109, _⟩ => ⟨S100000x10, .f32⟩
  | .hbm, ⟨110, _⟩ => ⟨S_, .i32⟩
  | .hbm, ⟨111, _⟩ => ⟨S1600000, .i32⟩
  | .hbm, ⟨112, _⟩ => ⟨S1600000, .i1⟩
  | .hbm, ⟨113, _⟩ => ⟨S_, .i32⟩
  | .hbm, ⟨114, _⟩ => ⟨S1600000, .i32⟩
  | .hbm, ⟨115, _⟩ => ⟨S1600000, .i32⟩
  | .hbm, ⟨116, _⟩ => ⟨S1600000, .i32⟩
  | .hbm, ⟨117, _⟩ => ⟨S1600000x1, .i32⟩
  | .hbm, ⟨118, _⟩ => ⟨S1600000x10, .f32⟩
  | .hbm, ⟨119, _⟩ => ⟨S1600000x1, .f32⟩
  | .hbm, ⟨120, _⟩ => ⟨S1600000x10, .f32⟩
  | .hbm, ⟨121, _⟩ => ⟨S1600000x10, .f32⟩
  | .hbm, ⟨122, _⟩ => ⟨S_, .f32⟩
  | .hbm, ⟨123, _⟩ => ⟨S100000x10, .f32⟩
  | .hbm, ⟨124, _⟩ => ⟨S1600000x1, .i32⟩
  | .hbm, ⟨125, _⟩ => ⟨S100000x10, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_call0_cst : Ref sig .tc := ⟨.hbm, 34, rfl⟩
abbrev main_call0_v0 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_1 : Ref sig .tc := ⟨.hbm, 41, rfl⟩
abbrev main_v22 : Ref sig .tc := ⟨.hbm, 42, rfl⟩
abbrev main_v23 : Ref sig .tc := ⟨.hbm, 43, rfl⟩
abbrev main_c_2 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_3 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_call1_cst : Ref sig .tc := ⟨.hbm, 57, rfl⟩
abbrev main_call1_v0 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_c_4 : Ref sig .tc := ⟨.hbm, 64, rfl⟩
abbrev main_v40 : Ref sig .tc := ⟨.hbm, 65, rfl⟩
abbrev main_v41 : Ref sig .tc := ⟨.hbm, 66, rfl⟩
abbrev main_c_5 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_6 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_call2_cst : Ref sig .tc := ⟨.hbm, 80, rfl⟩
abbrev main_call2_v0 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_c_7 : Ref sig .tc := ⟨.hbm, 87, rfl⟩
abbrev main_v58 : Ref sig .tc := ⟨.hbm, 88, rfl⟩
abbrev main_v59 : Ref sig .tc := ⟨.hbm, 89, rfl⟩
abbrev main_c_8 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_cst_9 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_call3_cst : Ref sig .tc := ⟨.hbm, 103, rfl⟩
abbrev main_call3_v0 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_c_10 : Ref sig .tc := ⟨.hbm, 110, rfl⟩
abbrev main_v76 : Ref sig .tc := ⟨.hbm, 111, rfl⟩
abbrev main_v77 : Ref sig .tc := ⟨.hbm, 112, rfl⟩
abbrev main_c_11 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_cst_12 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  bcast_S1600000x1_S1600000x10_0_1 : S1600000x1.BroadcastsInDim S1600000x10 (![0, 1] : Fin 2 → Fin S1600000x10.rank)
  bcast_S_S100000x10 : S_.BroadcastsInDim S100000x10 (![] : Fin 0 → Fin S100000x10.rank)
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x64_S64x10_S100000x10_1_0_0_1_n_n_wf : DotDims.WF S100000x64 S64x10 S100000x10 [1] [0] [0] [1] [] []
  gather_S100000x10_S1600000x1_S1600000x10_1_0_n_n_0_1_110_wf : GatherDims.WF S100000x10 S1600000x1 S1600000x10 [1] [0] [] [0] [] 1 ![1, 10]
  scatter_S100000x10_S1600000x1_S1600000x10_1_0_0_1_wf : ScatterDims.WF S100000x10 S1600000x1 S1600000x10 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x10_S100000x10_1_0_0_1_n_n : DotDims S100000x64 S64x10 S100000x10 where
  lhsContracting := [1]
  rhsContracting := [0]
  lhsNonContracting := [0]
  rhsNonContracting := [1]
  lhsBatch := []
  rhsBatch := []
  wf := dot_S100000x64_S64x10_S100000x10_1_0_0_1_n_n_wf
def gather_S100000x10_S1600000x1_S1600000x10_1_0_n_n_0_1_110 : GatherDims S100000x10 S1600000x1 S1600000x10 where
  offsetDims := [1]
  collapsedSliceDims := [0]
  operandBatchingDims := []
  startIndicesBatchingDims := []
  startIndexMap := [0]
  indexVectorDim := 1
  sliceSizes := ![1, 10]
  wf := gather_S100000x10_S1600000x1_S1600000x10_1_0_n_n_0_1_110_wf
def scatter_S100000x10_S1600000x1_S1600000x10_1_0_0_1 : ScatterDims S100000x10 S1600000x1 S1600000x10 where
  updateWindowDims := [1]
  insertedWindowDims := [0]
  scatterDimsToOperandDims := [0]
  indexVectorDim := 1
  wf := scatter_S100000x10_S1600000x1_S1600000x10_1_0_0_1_wf

class Facts : Prop extends Facts₀ where

variable [Facts]
-- ==== Proof.Model.lean ====
/-
  The graph network as a composition of three kinds of stage, in the reference program's spelling.

  With node features h (one row per node), an edge list (src, dst) and an edge weight w:

    * `lin…`   h ↦ h · W + b, one affine layer over the rows (128 → 64, 64 → 64 and 64 → 10 lanes);
    * `agg…`   the weighted neighbourhood sum: for every edge e the row of h at node src(e) (a negative index counted
                from the end, as an indexed read does), scaled by w(e), is added into row dst(e) of a zero array;
    * `relu64` the maximum with zero, entry by entry.

  The network is four rounds of  relu ∘ agg ∘ lin  followed by one round of  agg ∘ lin  into 10 lanes. The three
  stages are kept as opaque names: nothing below ever needs to look inside an aggregation, because both programs
  aggregate with the same operations on the same edge list, and differ only in how an affine layer is computed.
-/
import proofs.«107908_j2774548873595_2_alg».proof.ReferenceIdeal
import proofs.«107908_j2774548873595_2_alg».proof.Proof.Gen.ReferenceIdeal.Run
import Idealize.ShloMosaic.PureOps.Ideal

noncomputable section

namespace Cert.Gcn

open Idealize.ShloMosaic Idealize.ShloMosaic.TcCoe Idealize.SL.Sem Cert.ReferenceIdeal Cert.ReferenceIdeal.Gen

/-- The affine layer from 128 to 64 lanes, as the host spells it. -/
def lin128 (h : FVec Ideal S100000x128 .f32) (W : FVec Ideal S128x64 .f32) (b : FVec Ideal S64 .f32) :
    FVec Ideal S100000x64 .f32 :=
  addf (Host.dotGeneral dot_S100000x128_S128x64_S100000x64_1_0_0_1_n_n none h W)
    (broadcastInDim S100000x64 ![0, 1] bcast_S1x64_S100000x64_0_1 (broadcastInDim S1x64 ![1] bcast_S64_S1x64_1 b))

/-- The affine layer from 64 to 64 lanes. -/
def lin64 (h : FVec Ideal S100000x64 .f32) (W : FVec Ideal S64x64 .f32) (b : FVec Ideal S64 .f32) :
    FVec Ideal S100000x64 .f32 :=
  addf (Host.dotGeneral dot_S100000x64_S64x64_S100000x64_1_0_0_1_n_n none h W)
    (broadcastInDim S100000x64 ![0, 1] bcast_S1x64_S100000x64_0_1 (broadcastInDim S1x64 ![1] bcast_S64_S1x64_1 b))

/-- The affine layer from 64 to 10 lanes. -/
def lin10 (h : FVec Ideal S100000x64 .f32) (W : FVec Ideal S64x10 .f32) (b : FVec Ideal S10 .f32) :
    FVec Ideal S100000x10 .f32 :=
  addf (Host.dotGeneral dot_S100000x64_S64x10_S100000x10_1_0_0_1_n_n none h W)
    (broadcastInDim S100000x10 ![0, 1] bcast_S1x10_S100000x10_0_1 (broadcastInDim S1x10 ![1] bcast_S10_S1x10_1 b))

/-- The weighted neighbourhood sum over 64 lanes. -/
def agg64 (src dst : IVec S1600000 32) (w : FVec Ideal S1600000 .f32) (h : FVec Ideal S100000x64 .f32) :
    FVec Ideal S100000x64 .f32 :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 dst)
    (mulf
      (Host.gather gather_S100000x64_S1600000x1_S1600000x64_1_0_n_n_0_1_164 h
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src)))
      (broadcastInDim S1600000x64 ![0, 1] bcast_S1600000x1_S1600000x64_0_1
        (broadcastInDim S1600000x1 ![0] bcast_S1600000_S1600000x1_0 w)))

/-- The weighted neighbourhood sum over 10 lanes. -/
def agg10 (src dst : IVec S1600000 32) (w : FVec Ideal S1600000 .f32) (h : FVec Ideal S100000x10 .f32) :
    FVec Ideal S100000x10 .f32 :=
  Host.scatterAdd scatter_S100000x10_S1600000x1_S1600000x10_1_0_0_1
    (broadcastInDim S100000x10 ![] bcast_S_S100000x10 (constant S_ .f32 0x00000000#32))
    (broadcastInDim S1600000x1 ![0] bcast_S1600000_S1600000x1_0 dst)
    (mulf
      (Host.gather gather_S100000x10_S1600000x1_S1600000x10_1_0_n_n_0_1_110 h
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src)))
      (broadcastInDim S1600000x10 ![0, 1] bcast_S1600000x1_S1600000x10_0_1
        (broadcastInDim S1600000x1 ![0] bcast_S1600000_S1600000x1_0 w)))

/-- The maximum with zero, entry by entry. -/
def relu64 (h : FVec Ideal S100000x64 .f32) : FVec Ideal S100000x64 .f32 :=
  maximumf h (broadcastInDim S100000x64 ![] bcast_S_S100000x64 (constant S_ .f32 0x00000000#32))

/-- The whole network: four rounds of relu ∘ agg ∘ lin, then agg ∘ lin into 10 lanes. -/
def net (x : FVec Ideal S100000x128 .f32) (src dst : IVec S1600000 32) (w : FVec Ideal S1600000 .f32)
    (W0 : FVec Ideal S128x64 .f32) (b0 : FVec Ideal S64 .f32) (W1 : FVec Ideal S64x64 .f32) (b1 : FVec Ideal S64 .f32)
    (W2 : FVec Ideal S64x64 .f32) (b2 : FVec Ideal S64 .f32) (W3 : FVec Ideal S64x64 .f32) (b3 : FVec Ideal S64 .f32)
    (W4 : FVec Ideal S64x10 .f32) (b4 : FVec Ideal S10 .f32) : FVec Ideal S100000x10 .f32 :=
  agg10 src dst w (lin10 (relu64 (agg64 src dst w (lin64 (relu64 (agg64 src dst w (lin64 (relu64 (agg64 src dst w
    (lin64 (relu64 (agg64 src dst w (lin128 x W0 b0))) W1 b1))) W2 b2))) W3 b3))) W4 b4)

/-- The reference's run ends with its result at the network of the argument arrays: its composed term is the
    composition above with every name unfolded. -/
theorem reference_result (m : (ℓ : Loc nD τ sig) → Buf (Elt Ideal) ℓ) (c : Dev nD) :
    Cert.ReferenceIdeal.Value.res_main_v88 (F := Ideal) m c
      = net (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11))
          (m ((c.tc : Thread nD τ).loc main_arg12)) (m ((c.tc : Thread nD τ).loc main_arg13)) := by
  unfold Cert.ReferenceIdeal.Value.res_main_v88 net agg10 agg64 relu64 lin10 lin64 lin128
  rfl

end Cert.Gcn

end
-- ==== Proof.KernelRun.lean ====
/-
  The idealized kernel program's run, with its result named.

  The program is five pallas calls among stretches of host operations. Its run is the library's launch theorem for a
  list of host segments and kernel regions, over the generated segments of this program: every weakly fair execution
  terminates without a fault, and at the end every buffer of the core that outlives a call holds what the last
  boundary of the fold through @main says — the fold that applies each host stretch's operations in order and, at
  each call, replaces the call's arrays by what its write-backs leave. Read at the result buffer this names the
  result; read at the fourteen argument buffers it gives them back as launched.
-/
import proofs.«107908_j2774548873595_2_alg».proof.Proof.Gen.KernelIdeal.Frame
import Idealize.ShloMosaic.PureOps.Ideal

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every weakly fair execution of the idealized kernel program terminates, nothing faulting, with the result buffer
    at the last boundary's contents and the fourteen argument arrays as launched. -/
theorem run_main : θ_run defs (onTc (τ := τ) (main (F := Ideal))) ⟨m, fun _ => 0, ρ⟩ (fun r => ∀ c : Dev nD,
      r.2.mem ((c.tc : Thread nD τ).loc main_v83) = W24 m ρ c (Proc.devRef .tc main_v83)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W24 m ρ c b)
    (hfin := fun c s' => by
      iintro ⟨⟨Hh, -⟩, HSI⟩
      unfold StableHlo.held
      imodintro
      iapply (pointsTo_read_all (Pipeline.ucRefs τ sig) (fun b => (((c : Thread nD τ)).1, b)) (W24 m ρ c) s')
      isplitl [Hh] <;> iassumption)
    (hQ := fun s h c =>
      ⟨h c _ (mem_uc main_v83 (by decide)),
       (h c _ (mem_uc main_arg0 (by decide))).trans (W24_main_arg0 m ρ c),
       (h c _ (mem_uc main_arg1 (by decide))).trans (W24_main_arg1 m ρ c),
       (h c _ (mem_uc main_arg2 (by decide))).trans (W24_main_arg2 m ρ c),
       (h c _ (mem_uc main_arg3 (by decide))).trans (W24_main_arg3 m ρ c),
       (h c _ (mem_uc main_arg4 (by decide))).trans (W24_main_arg4 m ρ c),
       (h c _ (mem_uc main_arg5 (by decide))).trans (W24_main_arg5 m ρ c),
       (h c _ (mem_uc main_arg6 (by decide))).trans (W24_main_arg6 m ρ c),
       (h c _ (mem_uc main_arg7 (by decide))).trans (W24_main_arg7 m ρ c),
       (h c _ (mem_uc main_arg8 (by decide))).trans (W24_main_arg8 m ρ c),
       (h c _ (mem_uc main_arg9 (by decide))).trans (W24_main_arg9 m ρ c),
       (h c _ (mem_uc main_arg10 (by decide))).trans (W24_main_arg10 m ρ c),
       (h c _ (mem_uc main_arg11 (by decide))).trans (W24_main_arg11 m ρ c),
       (h c _ (mem_uc main_arg12 (by decide))).trans (W24_main_arg12 m ρ c),
       (h c _ (mem_uc main_arg13 (by decide))).trans (W24_main_arg13 m ρ c)⟩)

end Cert.KernelIdeal.Run

end
-- ==== Proof.LibPlainDot.lean ====
/-
  The plain matrix product read at one entry, at the ideal values.

  Take dimension numbers that contract the left operand's column axis against the right operand's row axis and
  have no batch axis: an m×k matrix A times a k×n matrix B. Then a kernel's `tpu.matmul` into the zero
  accumulator and the host's `dot_general` both hold, at entry (a, b), the sum over the contracted coordinate c
  of A(a, c) · B(c, b) — in the extended reals, with no finiteness asked, since both are that sum by definition
  once the contraction index is renamed by its one coordinate.

  The dimension record may be any record equal to the library's `DotDims.plain m k n`; for a record written out
  with those lists the equality is `rfl`.
-/
import Idealize.ShloMosaic.PureOps.Ideal.Laws
import Idealize.ShloMosaic.Lib.ValueIdx

noncomputable section

open scoped BigOperators

namespace Cert.PlainDot

open Idealize.ShloMosaic Idealize.ShloMosaic.ValueIdx

variable {m k n : Nat} {φ₁ φ₂ : FTy}

/-- The left operand's row coordinate is the output's row. -/
theorem lhsIdx_plain_0 (j : (⟨2, ![m, n]⟩ : Shape).Idx) (q : (DotDims.plain m k n).contr.Idx) :
    ((DotDims.plain m k n).lhsIdx j q 0).val = (j 0).val := by
  unfold DotDims.lhsIdx
  rw [dif_neg (show ¬(0 : Fin 2) ∈ (DotDims.plain m k n).lhsBatch from List.not_mem_nil),
    dif_pos (show (0 : Fin 2) ∈ (DotDims.plain m k n).lhsNonContracting from List.mem_singleton.mpr rfl)]
  rfl

/-- The left operand's column coordinate is the contraction coordinate. -/
theorem lhsIdx_plain_1 (j : (⟨2, ![m, n]⟩ : Shape).Idx) (q : (DotDims.plain m k n).contr.Idx) :
    ((DotDims.plain m k n).lhsIdx j q 1).val = (q ⟨0, Nat.one_pos⟩).val :=
  (DotDims.plain m k n).lhsIdx_val_of_single rfl j q

/-- The right operand's row coordinate is the contraction coordinate. -/
theorem rhsIdx_plain_0 (j : (⟨2, ![m, n]⟩ : Shape).Idx) (q : (DotDims.plain m k n).contr.Idx) :
    ((DotDims.plain m k n).rhsIdx j q 0).val = (q ⟨0, Nat.one_pos⟩).val :=
  (DotDims.plain m k n).rhsIdx_val_of_single rfl j q

/-- The right operand's column coordinate is the output's column. -/
theorem rhsIdx_plain_1 (j : (⟨2, ![m, n]⟩ : Shape).Idx) (q : (DotDims.plain m k n).contr.Idx) :
    ((DotDims.plain m k n).rhsIdx j q 1).val = (j 1).val := by
  unfold DotDims.rhsIdx
  rw [dif_neg (show ¬(1 : Fin 2) ∈ (DotDims.plain m k n).rhsBatch from List.not_mem_nil),
    dif_pos (show (1 : Fin 2) ∈ (DotDims.plain m k n).rhsNonContracting from List.mem_singleton.mpr rfl)]
  rfl

/-- At output entry (a, b) and contraction coordinate c the left operand is read at (a, c). -/
theorem lhsIdx_plain (a : Fin m) (b : Fin n) (c : Fin k) :
    (DotDims.plain m k n).lhsIdx (ix2 a b) ((contrEquiv1 (DotDims.plain m k n) k rfl rfl).symm c) = ix2 a c := by
  have hc := contrEquiv1_symm_val (DotDims.plain m k n) k rfl rfl c
  funext ax
  apply Fin.ext
  match ax with
  | ⟨0, _⟩ => exact lhsIdx_plain_0 _ _
  | ⟨1, _⟩ => exact (lhsIdx_plain_1 _ _).trans hc

/-- At output entry (a, b) and contraction coordinate c the right operand is read at (c, b). -/
theorem rhsIdx_plain (a : Fin m) (b : Fin n) (c : Fin k) :
    (DotDims.plain m k n).rhsIdx (ix2 a b) ((contrEquiv1 (DotDims.plain m k n) k rfl rfl).symm c) = ix2 c b := by
  have hc := contrEquiv1_symm_val (DotDims.plain m k n) k rfl rfl c
  funext ax
  apply Fin.ext
  match ax with
  | ⟨0, _⟩ => exact (rhsIdx_plain_0 _ _).trans hc
  | ⟨1, _⟩ => exact rhsIdx_plain_1 _ _

/-- The sum over the contraction index of a plain product is the sum over its one coordinate. -/
theorem sum_contr_plain (A : (⟨2, ![m, k]⟩ : Shape).Idx → EReal) (B : (⟨2, ![k, n]⟩ : Shape).Idx → EReal)
    (a : Fin m) (b : Fin n) :
    (∑ q : (DotDims.plain m k n).contr.Idx,
        A ((DotDims.plain m k n).lhsIdx (ix2 a b) q) * B ((DotDims.plain m k n).rhsIdx (ix2 a b) q))
      = ∑ c : Fin k, A (ix2 a c) * B (ix2 c b) := by
  rw [← Equiv.sum_comp (contrEquiv1 (DotDims.plain m k n) k rfl rfl).symm]
  refine Finset.sum_congr rfl fun c _ => ?_
  rw [lhsIdx_plain, rhsIdx_plain]

/-- A `tpu.matmul` into the zero accumulator, with the plain dimension numbers, at entry (a, b):
    the sum over c of A(a, c) · B(c, b). -/
theorem matmul_zero_apply (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂)
    (a : Fin m) (b : Fin n) :
    FloatOps.matmul D prec A B (constant (F := Ideal) ⟨2, ![m, n]⟩ .f32 0x00000000#32) (ix2 a b)
      = ∑ c : Fin k, A (ix2 a c) * B (ix2 c b) := by
  subst hD
  rw [Ideal.matmul_constant_zero_apply]
  exact sum_contr_plain A B a b

/-- The host's `dot_general` with the plain dimension numbers, at entry (a, b): the same sum. -/
theorem dotGeneral_apply (D : DotDims ⟨2, ![m, k]⟩ ⟨2, ![k, n]⟩ ⟨2, ![m, n]⟩) (hD : D = DotDims.plain m k n)
    (prec : Option ContractPrecision) (sched : HostSchedule) (A : FVec Ideal ⟨2, ![m, k]⟩ φ₁)
    (B : FVec Ideal ⟨2, ![k, n]⟩ φ₂) (a : Fin m) (b : Fin n) :
    FloatOps.dotGeneral D prec sched A B (ix2 a b) = ∑ c : Fin k, A (ix2 a c) * B (ix2 c b) := by
  subst hD
  rw [Ideal.dotGeneral_apply]
  exact sum_contr_plain A B a b

end Cert.PlainDot

end
-- ==== Proof.LibRowVector.lean ====
/-
  A length-n vector laid out as a 1×n row, and a 1×n row copied to every row of an R×n matrix, read at an entry.

  * `broadcastTo_row`: a 1×n row broadcast to R×n holds, at (p, k), the row's entry (0, k) — for n ≠ 1
    (a unit axis of the operand is the one that is copied; a length-1 last axis would be copied too).
  * `shapeCast_row`: a length-n vector reshaped to a 1×n row holds, at (0, k), the vector's entry k: both sit at
    row-major position k.
-/
import Idealize.ShloMosaic.Lib.Pipeline.Value
import Idealize.ShloMosaic.Lib.ValueIdx

noncomputable section

namespace Cert.RowVector

open Idealize.ShloMosaic Idealize.ShloMosaic.ValueIdx

variable {α : Type} {R n : Nat}

/-- A 1×n row copied to every row of an R×n matrix, at (p, k): the row at (0, k). -/
theorem broadcastTo_row (hn : n ≠ 1) (v : (⟨2, ![1, n]⟩ : Shape).Idx → α)
    (h : (⟨2, ![1, n]⟩ : Shape).Broadcasts ⟨2, ![R, n]⟩) (p : Fin R) (k : Fin n) :
    broadcastTo ⟨2, ![R, n]⟩ v h (ix2 p k) = v (ix2 0 k) :=
  broadcastTo_apply v h (ix2 p k) (ix2 0 k) (fun a => match a with
    | ⟨0, _⟩ => by
      show (0 : Nat) = if (1 : Nat) = 1 then 0 else _
      rw [if_pos rfl]
    | ⟨1, _⟩ => by
      show k.val = if n = 1 then 0 else k.val
      rw [if_neg hn])

/-- A length-n vector reshaped to a 1×n row, at (0, k): the vector at k. -/
theorem shapeCast_row (x : (⟨1, ![n]⟩ : Shape).Idx → α)
    (h : (⟨1, ![n]⟩ : Shape).ShapeCasts ⟨2, ![1, n]⟩) (k : Fin n) :
    shapeCast ⟨2, ![1, n]⟩ x h (ix2 0 k) = x (ix1 k) :=
  shapeCast_apply x h (ix2 0 k) (ix1 k) (by
    rw [Shape.rowMajor_val_two, Shape.rowMajor_val_one]
    show k.val = 0 * n + k.val
    omega)

end Cert.RowVector

end
-- ==== Proof.LibRowInDim.lean ====
/-
  A 1×n row copied to every row of an R×n matrix by a host broadcast along both axes, read at an entry.

  `broadcast_in_dim` with dims = [0, 1] from 1×n to R×n copies along the operand's unit axis 0 and keeps axis 1
  (for n ≠ 1, where axis 1 is not itself a unit axis): entry (p, k) of the result is the row's entry (0, k).
-/
import Idealize.ShloMosaic.Lib.Pipeline.Value
import Idealize.ShloMosaic.Lib.ValueIdx

noncomputable section

namespace Cert.RowInDim

open Idealize.ShloMosaic Idealize.ShloMosaic.ValueIdx

variable {α : Type} {R n : Nat}

/-- The row broadcast along both axes into R×n, at (p, k): the row at (0, k). -/
theorem broadcastInDim_rows (hn : n ≠ 1) (v : (⟨2, ![1, n]⟩ : Shape).Idx → α)
    (h : (⟨2, ![1, n]⟩ : Shape).BroadcastsInDim ⟨2, ![R, n]⟩ (![0, 1] : Fin 2 → Fin 2)) (p : Fin R) (k : Fin n) :
    broadcastInDim ⟨2, ![R, n]⟩ ![0, 1] h v (ix2 p k) = v (ix2 0 k) :=
  broadcastInDim_apply _ h v (ix2 p k) (ix2 0 k) (fun a => match a with
    | ⟨0, _⟩ => by
      show (0 : Nat) = if (1 : Nat) = 1 then 0 else _
      rw [if_pos rfl]
    | ⟨1, _⟩ => by
      show k.val = if n = 1 then 0 else k.val
      rw [if_neg hn])

end Cert.RowInDim

end
-- ==== Proof.LibRowOfVector.lean ====
/-
  Two spellings of a length-n vector laid out as a 1×n row.

  A reshape of the vector to 1×n and a broadcast of it along axis 1 into a 1×n array are the same array: both hold,
  at (0, k), the vector's entry k (for n ≠ 1, where the broadcast does not copy along the vector's own axis).
-/
import Idealize.ShloMosaic.Lib.Pipeline.Value
import Idealize.ShloMosaic.Lib.ValueIdx

noncomputable section

namespace Cert.RowOfVector

open Idealize.ShloMosaic Idealize.ShloMosaic.ValueIdx

variable {α : Type} {n : Nat}

/-- The vector broadcast along axis 1 into a 1×n row, at (0, k): the vector at k. -/
theorem broadcastInDim_row (hn : n ≠ 1) (x : (⟨1, ![n]⟩ : Shape).Idx → α)
    (h : (⟨1, ![n]⟩ : Shape).BroadcastsInDim ⟨2, ![1, n]⟩ (![1] : Fin 1 → Fin 2)) (z : Fin 1) (k : Fin n) :
    broadcastInDim ⟨2, ![1, n]⟩ ![1] h x (ix2 z k) = x (ix1 k) :=
  broadcastInDim_apply _ h x (ix2 z k) (ix1 k) (fun a => match a with
    | ⟨0, _⟩ => by
      show k.val = if n = 1 then 0 else k.val
      rw [if_neg hn])

/-- The vector reshaped to a 1×n row, at (0, k): the vector at k. -/
theorem shapeCast_row (x : (⟨1, ![n]⟩ : Shape).Idx → α)
    (h : (⟨1, ![n]⟩ : Shape).ShapeCasts ⟨2, ![1, n]⟩) (z : Fin 1) (k : Fin n) :
    shapeCast ⟨2, ![1, n]⟩ x h (ix2 z k) = x (ix1 k) :=
  shapeCast_apply x h (ix2 z k) (ix1 k) (by
    rw [Shape.rowMajor_val_two, Shape.rowMajor_val_one]
    show k.val = z.val * n + k.val
    have hz : z.val = 0 := by have := z.isLt; omega
    rw [hz]; omega)

/-- So the reshape and the broadcast are one array. -/
theorem shapeCast_eq_broadcastInDim (hn : n ≠ 1) (x : (⟨1, ![n]⟩ : Shape).Idx → α)
    (h : (⟨1, ![n]⟩ : Shape).ShapeCasts ⟨2, ![1, n]⟩)
    (h' : (⟨1, ![n]⟩ : Shape).BroadcastsInDim ⟨2, ![1, n]⟩ (![1] : Fin 1 → Fin 2)) :
    shapeCast ⟨2, ![1, n]⟩ x h = broadcastInDim ⟨2, ![1, n]⟩ ![1] h' x := by
  funext j
  obtain ⟨z, k, rfl⟩ : ∃ (z : Fin 1) (k : Fin n), j = ix2 z k := ⟨j 0, j 1, eq_ix2 j⟩
  rw [shapeCast_row, broadcastInDim_row hn]

end Cert.RowOfVector

end
-- ==== Proof.LibHostRead.lean ====
/-
  GENERAL LEMMAS: host layout operations read at an index.

  * a host operation of three operands whose function is given as a function of the three contents leaves that
    function of the three operands' contents in its result buffer;
  * a matrix (or vector) padded on the high side only reads, inside the original extents, the operand at the same
    index, and outside them the padding value;
  * three equal-shape blocks joined along the lanes of a matrix (or along a vector) read, at position
    w·g + r of the joined axis, block g at position r.
  Nothing here depends on a program.
-/
import Idealize.ShloMosaic.Lib.StableHlo.Run
import Idealize.ShloMosaic.Lib.Pipeline.Value
import Idealize.ShloMosaic.Lib.ValueIdx

noncomputable section

namespace Cert.HostRead

open Idealize.ShloMosaic Idealize.ShloMosaic.ValueIdx Idealize.ShloMosaic.StableHlo Idealize.SL.Sem

/-- A three-operand host operation whose function is `g` of the three contents: its result buffer holds `g` of the
    operands' contents. -/
theorem nary3_result {τ : Topo} {sig : RefSig} {Val : EltTy → Type} {x a b y : Ref sig .tc}
    (g : x.ty.Contents Val → a.ty.Contents Val → b.ty.Contents Val → y.ty.Contents Val) (hxs hy)
    (F : Valuation τ sig Val) :
    (nary (τ := τ) ![x, a, b] y (fun u => g (u 0) (u 1) (u 2)) hxs hy).result F (no_index (Proc.devRef .tc y))
      = g (F (Proc.devRef .tc x)) (F (Proc.devRef .tc a)) (F (Proc.devRef .tc b)) :=
  nary_result ![x, a, b] y _ hxs hy F

variable {α : Type}

/-- A matrix padded on the high side of both axes, read inside the original extents. -/
theorem pad2_inside {a b A B ha hb : Nat} (X : (⟨2, ![a, b]⟩ : Shape).Idx → α) {u : Shape} (v : u.Idx → α)
    (h : (⟨2, ![a, b]⟩ : Shape).Pads ![0, 0] ![ha, hb] ![0, 0] ⟨2, ![A, B]⟩) (hu : 0 < u.numel)
    (i : Fin A) (j : Fin B) (hi : i.val < a) (hj : j.val < b) :
    pad ⟨2, ![A, B]⟩ ![0, 0] ![ha, hb] ![0, 0] X v h hu (ix2 i j) = X (ix2 ⟨i.val, hi⟩ ⟨j.val, hj⟩) := by
  unfold pad
  rw [dif_pos (fun ax => match ax with
    | ⟨0, _⟩ => ⟨Nat.zero_le _, Nat.mod_one _, by show (i.val - 0) / (0 + 1) < a; simpa using hi⟩
    | ⟨1, _⟩ => ⟨Nat.zero_le _, Nat.mod_one _, by show (j.val - 0) / (0 + 1) < b; simpa using hj⟩)]
  refine congrArg X (funext fun ax => Fin.ext ?_)
  match ax with
  | ⟨0, _⟩ => show (i.val - 0) / (0 + 1) = i.val; simp
  | ⟨1, _⟩ => show (j.val - 0) / (0 + 1) = j.val; simp

/-- A matrix padded on the high side, read at a row past the original rows: the padding value. -/
theorem pad2_past_rows {a b A B ha hb : Nat} (X : (⟨2, ![a, b]⟩ : Shape).Idx → α) {u : Shape} (v : u.Idx → α)
    (h : (⟨2, ![a, b]⟩ : Shape).Pads ![0, 0] ![ha, hb] ![0, 0] ⟨2, ![A, B]⟩) (hu : 0 < u.numel)
    (i : Fin A) (j : Fin B) (hi : a ≤ i.val) :
    pad ⟨2, ![A, B]⟩ ![0, 0] ![ha, hb] ![0, 0] X v h hu (ix2 i j) = v (Shape.Idx.first hu) := by
  unfold pad
  rw [dif_neg]
  intro hin
  have h0 : (i.val - 0) / (0 + 1) < a := (hin (0 : Fin 2)).2.2
  simp at h0
  omega

/-- A vector padded on the high side, read inside the original extent. -/
theorem pad1_inside {a A ha : Nat} (x : (⟨1, ![a]⟩ : Shape).Idx → α) {u : Shape} (v : u.Idx → α)
    (h : (⟨1, ![a]⟩ : Shape).Pads ![0] ![ha] ![0] ⟨1, ![A]⟩) (hu : 0 < u.numel) (i : Fin A) (hi : i.val < a) :
    pad ⟨1, ![A]⟩ ![0] ![ha] ![0] x v h hu (ix1 i) = x (ix1 ⟨i.val, hi⟩) := by
  unfold pad
  rw [dif_pos (fun ax => match ax with
    | ⟨0, _⟩ => ⟨Nat.zero_le _, Nat.mod_one _, by show (i.val - 0) / (0 + 1) < a; simpa using hi⟩)]
  refine congrArg x (funext fun ax => Fin.ext ?_)
  match ax with
  | ⟨0, _⟩ => show (i.val - 0) / (0 + 1) = i.val; simp

/-- Three K×w blocks joined along the lanes, read at lane w·g + r: block g at lane r. -/
theorem join3_lanes {K w n : Nat} (A0 A1 A2 : (⟨2, ![K, w]⟩ : Shape).Idx → α)
    (h : Shape.Concatenates [(⟨2, ![K, w]⟩ : Shape), ⟨2, ![K, w]⟩, ⟨2, ![K, w]⟩] ⟨2, ![K, n]⟩ 1) (k : Fin K) (r : Fin w) (l : Fin n) :
    (l.val = r.val → concatenate ⟨2, ![K, n]⟩ 1 [⟨⟨2, ![K, w]⟩, A0⟩, ⟨⟨2, ![K, w]⟩, A1⟩, ⟨⟨2, ![K, w]⟩, A2⟩] h (ix2 k l) = A0 (ix2 k r))
    ∧ (l.val = w + r.val → concatenate ⟨2, ![K, n]⟩ 1 [⟨⟨2, ![K, w]⟩, A0⟩, ⟨⟨2, ![K, w]⟩, A1⟩, ⟨⟨2, ![K, w]⟩, A2⟩] h (ix2 k l) = A1 (ix2 k r))
    ∧ (l.val = w + w + r.val → concatenate ⟨2, ![K, n]⟩ 1 [⟨⟨2, ![K, w]⟩, A0⟩, ⟨⟨2, ![K, w]⟩, A1⟩, ⟨⟨2, ![K, w]⟩, A2⟩] h (ix2 k l) = A2 (ix2 k r)) := by
  have hi : ∀ b : Fin 2, b.cast (rfl : (2 : Nat) = 2) ≠ (1 : Fin 2) → ((ix2 k r : (⟨2, ![K, w]⟩ : Shape).Idx) b).val = ((ix2 k l : (⟨2, ![K, n]⟩ : Shape).Idx) (b.cast rfl)).val :=
    fun b hb => match b with
      | ⟨0, _⟩ => rfl
      | ⟨1, _⟩ => absurd rfl hb
  refine ⟨fun hl => ?_, fun hl => ?_, fun hl => ?_⟩
  · exact concatenate_apply_piece (t := ⟨2, ![K, n]⟩) (1 : Fin 2) [⟨⟨2, ![K, w]⟩, A0⟩, ⟨⟨2, ![K, w]⟩, A1⟩, ⟨⟨2, ![K, w]⟩, A2⟩] h (ix2 k l) 0 (by show 0 < 3; omega) _ A0 rfl rfl 0 (by simp) (ix2 k r) hi (by show 0 + r.val = l.val; omega)
  · exact concatenate_apply_piece (t := ⟨2, ![K, n]⟩) (1 : Fin 2) [⟨⟨2, ![K, w]⟩, A0⟩, ⟨⟨2, ![K, w]⟩, A1⟩, ⟨⟨2, ![K, w]⟩, A2⟩] h (ix2 k l) 1 (by show 1 < 3; omega) _ A1 rfl rfl w (by simp) (ix2 k r) hi (by show w + r.val = l.val; omega)
  · exact concatenate_apply_piece (t := ⟨2, ![K, n]⟩) (1 : Fin 2) [⟨⟨2, ![K, w]⟩, A0⟩, ⟨⟨2, ![K, w]⟩, A1⟩, ⟨⟨2, ![K, w]⟩, A2⟩] h (ix2 k l) 2 (by show 2 < 3; omega) _ A2 rfl rfl (w + w) (by simp) (ix2 k r) hi (by show w + w + r.val = l.val; omega)

/-- Three length-w vectors joined end to end, read at position w·g + r: vector g at position r. -/
theorem join3_vec {w n : Nat} (a0 a1 a2 : (⟨1, ![w]⟩ : Shape).Idx → α)
    (h : Shape.Concatenates [(⟨1, ![w]⟩ : Shape), ⟨1, ![w]⟩, ⟨1, ![w]⟩] ⟨1, ![n]⟩ 0) (r : Fin w) (l : Fin n) :
    (l.val = r.val → concatenate ⟨1, ![n]⟩ 0 [⟨⟨1, ![w]⟩, a0⟩, ⟨⟨1, ![w]⟩, a1⟩, ⟨⟨1, ![w]⟩, a2⟩] h (ix1 l) = a0 (ix1 r))
    ∧ (l.val = w + r.val → concatenate ⟨1, ![n]⟩ 0 [⟨⟨1, ![w]⟩, a0⟩, ⟨⟨1, ![w]⟩, a1⟩, ⟨⟨1, ![w]⟩, a2⟩] h (ix1 l) = a1 (ix1 r))
    ∧ (l.val = w + w + r.val → concatenate ⟨1, ![n]⟩ 0 [⟨⟨1, ![w]⟩, a0⟩, ⟨⟨1, ![w]⟩, a1⟩, ⟨⟨1, ![w]⟩, a2⟩] h (ix1 l) = a2 (ix1 r)) := by
  have hi : ∀ b : Fin 1, b.cast (rfl : (1 : Nat) = 1) ≠ (0 : Fin 1) → ((ix1 r : (⟨1, ![w]⟩ : Shape).Idx) b).val = ((ix1 l : (⟨1, ![n]⟩ : Shape).Idx) (b.cast rfl)).val :=
    fun b hb => match b with
      | ⟨0, _⟩ => absurd rfl hb
  refine ⟨fun hl => ?_, fun hl => ?_, fun hl => ?_⟩
  · exact concatenate_apply_piece (t := ⟨1, ![n]⟩) (0 : Fin 1) [⟨⟨1, ![w]⟩, a0⟩, ⟨⟨1, ![w]⟩, a1⟩, ⟨⟨1, ![w]⟩, a2⟩] h (ix1 l) 0 (by show 0 < 3; omega) _ a0 rfl rfl 0 (by simp) (ix1 r) hi (by show 0 + r.val = l.val; omega)
  · exact concatenate_apply_piece (t := ⟨1, ![n]⟩) (0 : Fin 1) [⟨⟨1, ![w]⟩, a0⟩, ⟨⟨1, ![w]⟩, a1⟩, ⟨⟨1, ![w]⟩, a2⟩] h (ix1 l) 1 (by show 1 < 3; omega) _ a1 rfl rfl w (by simp) (ix1 r) hi (by show w + r.val = l.val; omega)
  · exact concatenate_apply_piece (t := ⟨1, ![n]⟩) (0 : Fin 1) [⟨⟨1, ![w]⟩, a0⟩, ⟨⟨1, ![w]⟩, a1⟩, ⟨⟨1, ![w]⟩, a2⟩] h (ix1 l) 2 (by show 2 < 3; omega) _ a2 rfl rfl (w + w) (by simp) (ix1 r) hi (by show w + w + r.val = l.val; omega)

end Cert.HostRead

end
-- ==== Proof.LibLinear.lean ====
/-
  An affine layer read at one entry, at the ideal values.

  For an R×K matrix X, a K×N matrix W and a length-N vector b the layer is the array

      dense X W b (i, j) = (∑ c, X(i, c) · W(c, j)) + b(j)

  in the extended reals. Two spellings of it are read here at an entry (p, q), with no finiteness asked, since
  each is that sum by definition once the contraction index is renamed by its one coordinate:

    * a kernel's: the product on the matrix unit into the zero accumulator of the two operands after a change of
      float format (the identity on ideal values), the left operand first re-cast to its own shape; the vector
      laid out as a 1×N row, copied to every row and added;
    * a host's: the general dot product with the plain dimension numbers; the vector broadcast to a 1×N row and
      then to every row, and added.

  Row i of the layer depends on row i of X alone. So rows appended below X (a padding of any value) change nothing
  in the first rows: the layer of the padded matrix, cut back to the original rows, is the layer of X
  (`slice_dense_pad`).

  The dimension record of either product may be any record equal to the plain one (for a record written out with
  those lists the equality is `rfl`); N ≠ 1 so that the row's own axis is not one that a broadcast copies.
-/
import Idealize.ShloMosaic.PureOps.Ideal.Laws
import Idealize.ShloMosaic.Lib.Pipeline.Value
import Idealize.ShloMosaic.Lib.ValueIdx
import proofs.«107908_j2774548873595_2_alg».proof.Proof.LibPlainDot
import proofs.«107908_j2774548873595_2_alg».proof.Proof.LibRowVector
import proofs.«107908_j2774548873595_2_alg».proof.Proof.LibRowInDim
import proofs.«107908_j2774548873595_2_alg».proof.Proof.LibRowOfVector
import proofs.«107908_j2774548873595_2_alg».proof.Proof.LibHostRead

noncomputable section

open scoped BigOperators

namespace Cert.Linear

open Idealize.ShloMosaic Idealize.ShloMosaic.ValueIdx

variable {R K N : Nat}

/-- The affine layer X · W + b as one array, entry by entry. -/
def dense (X : (⟨2, ![R, K]⟩ : Shape).Idx → EReal) (W : (⟨2, ![K, N]⟩ : Shape).Idx → EReal)
    (b : (⟨1, ![N]⟩ : Shape).Idx → EReal) : (⟨2, ![R, N]⟩ : Shape).Idx → EReal :=
  fun i => (∑ c : Fin K, X (ix2 (i 0) c) * W (ix2 c (i 1))) + b (ix1 (i 1))

/-- The layer at entry (p, q). -/
theorem dense_apply (X : (⟨2, ![R, K]⟩ : Shape).Idx → EReal) (W : (⟨2, ![K, N]⟩ : Shape).Idx → EReal)
    (b : (⟨1, ![N]⟩ : Shape).Idx → EReal) (p : Fin R) (q : Fin N) :
    dense X W b (ix2 p q) = (∑ c : Fin K, X (ix2 p c) * W (ix2 c q)) + b (ix1 q) := rfl

/-- A kernel's spelling of the layer, at entry (p, q). -/
theorem kernel_apply (D : DotDims ⟨2, ![R, K]⟩ ⟨2, ![K, N]⟩ ⟨2, ![R, N]⟩) (hD : D = DotDims.plain R K N) (hN : N ≠ 1)
    (prec : Option ContractPrecision) (X : FVec Ideal ⟨2, ![R, K]⟩ .f32) (W : FVec Ideal ⟨2, ![K, N]⟩ .f32)
    (b : FVec Ideal ⟨1, ![N]⟩ .f32)
    (hX : (⟨2, ![R, K]⟩ : Shape).ShapeCasts ⟨2, ![R, K]⟩) (hb : (⟨1, ![N]⟩ : Shape).ShapeCasts ⟨2, ![1, N]⟩)
    (hbc : (⟨2, ![1, N]⟩ : Shape).Broadcasts ⟨2, ![R, N]⟩) (hlt : FTy.bf16.bits < FTy.f32.bits)
    (p : Fin R) (q : Fin N) :
    addf (matmul D prec (truncf .bf16 (shapeCast ⟨2, ![R, K]⟩ X hX) hlt) (truncf .bf16 W hlt)
          (constant (F := Ideal) ⟨2, ![R, N]⟩ .f32 0x00000000#32))
        (broadcastTo ⟨2, ![R, N]⟩ (shapeCast ⟨2, ![1, N]⟩ b hb) hbc) (ix2 p q)
      = dense X W b (ix2 p q) := by
  show matmul D prec (truncf .bf16 (shapeCast ⟨2, ![R, K]⟩ X hX) hlt) (truncf .bf16 W hlt)
        (constant (F := Ideal) ⟨2, ![R, N]⟩ .f32 0x00000000#32) (ix2 p q)
      + broadcastTo ⟨2, ![R, N]⟩ (shapeCast ⟨2, ![1, N]⟩ b hb) hbc (ix2 p q) = _
  rw [RowVector.broadcastTo_row hN, RowVector.shapeCast_row, dense_apply]
  refine congrArg (· + b (ix1 q))
    ((PlainDot.matmul_zero_apply D hD prec (truncf .bf16 (shapeCast ⟨2, ![R, K]⟩ X hX) hlt) (truncf .bf16 W hlt) p q).trans ?_)
  refine Finset.sum_congr rfl fun c _ => ?_
  show shapeCast ⟨2, ![R, K]⟩ X hX (ix2 p c) * W (ix2 c q) = _
  rw [shapeCast_self]

/-- A host's spelling of the layer, at entry (r, c). -/
theorem host_apply (D : DotDims ⟨2, ![R, K]⟩ ⟨2, ![K, N]⟩ ⟨2, ![R, N]⟩) (hD : D = DotDims.plain R K N) (hN : N ≠ 1)
    (prec : Option ContractPrecision) (X : FVec Ideal ⟨2, ![R, K]⟩ .f32) (W : FVec Ideal ⟨2, ![K, N]⟩ .f32)
    (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![R, N]⟩ (![0, 1] : Fin 2 → Fin 2)) (r : Fin R) (c : Fin N) :
    addf (Host.dotGeneral D prec X W)
        (broadcastInDim ⟨2, ![R, N]⟩ ![0, 1] h2 (broadcastInDim ⟨2, ![1, N]⟩ ![1] h1 b)) (ix2 r c)
      = dense X W b (ix2 r c) := by
  show FloatOps.dotGeneral D prec .single X W (ix2 r c)
      + broadcastInDim ⟨2, ![R, N]⟩ ![0, 1] h2 (broadcastInDim ⟨2, ![1, N]⟩ ![1] h1 b) (ix2 r c) = _
  rw [RowInDim.broadcastInDim_rows hN, PlainDot.dotGeneral_apply D hD, RowOfVector.broadcastInDim_row hN, dense_apply]

/-- So a host's spelling of the layer IS the layer. -/
theorem host_eq (D : DotDims ⟨2, ![R, K]⟩ ⟨2, ![K, N]⟩ ⟨2, ![R, N]⟩) (hD : D = DotDims.plain R K N) (hN : N ≠ 1)
    (prec : Option ContractPrecision) (X : FVec Ideal ⟨2, ![R, K]⟩ .f32) (W : FVec Ideal ⟨2, ![K, N]⟩ .f32)
    (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![R, N]⟩ (![0, 1] : Fin 2 → Fin 2)) :
    addf (Host.dotGeneral D prec X W)
        (broadcastInDim ⟨2, ![R, N]⟩ ![0, 1] h2 (broadcastInDim ⟨2, ![1, N]⟩ ![1] h1 b))
      = dense X W b := by
  funext j
  obtain ⟨r, c, rfl⟩ : ∃ (r : Fin R) (c : Fin N), j = ix2 r c := ⟨j 0, j 1, eq_ix2 j⟩
  exact host_apply D hD hN prec X W b h1 h2 r c

/-- Rows appended below a matrix do not reach the rows above them: the layer of a matrix padded with extra rows,
    cut back to the original rows, is the layer of the matrix. -/
theorem slice_dense_pad {a A ha : Nat} (X : (⟨2, ![a, K]⟩ : Shape).Idx → EReal) {u : Shape} (v : u.Idx → EReal)
    (W : (⟨2, ![K, N]⟩ : Shape).Idx → EReal) (b : (⟨1, ![N]⟩ : Shape).Idx → EReal)
    (hp : (⟨2, ![a, K]⟩ : Shape).Pads ![0, 0] ![ha, 0] ![0, 0] ⟨2, ![A, K]⟩) (hu : 0 < u.numel)
    (hs : (⟨2, ![A, N]⟩ : Shape).Slices ![0, 0] ⟨2, ![a, N]⟩) (haA : a ≤ A) :
    extractStridedSlice ⟨2, ![a, N]⟩ ![0, 0] (dense (pad ⟨2, ![A, K]⟩ ![0, 0] ![ha, 0] ![0, 0] X v hp hu) W b) hs
      = dense X W b := by
  funext j
  obtain ⟨r, q, rfl⟩ : ∃ (r : Fin a) (q : Fin N), j = ix2 r q := ⟨j 0, j 1, eq_ix2 j⟩
  have hr : r.val < A := lt_of_lt_of_le r.isLt haA
  rw [extractStridedSlice_apply ![0, 0] _ hs (ix2 r q) (ix2 ⟨r.val, hr⟩ q) (fun ax => match ax with
      | ⟨0, _⟩ => by show r.val = 0 + r.val; omega
      | ⟨1, _⟩ => by show q.val = 0 + q.val; omega),
    dense_apply, dense_apply]
  refine congrArg (· + b (ix1 q)) (Finset.sum_congr rfl fun c _ => ?_)
  rw [HostRead.pad2_inside X v hp hu ⟨r.val, hr⟩ c r.isLt c.isLt]

end Cert.Linear

end
-- ==== Proof.Layer0.lean ====
/-
  Pallas call 0 of the kernel program: what its output array holds when the call returns.

  The call walks 98 grid points. At point t the body is handed rows 1024·t … 1024·t + 1023 of the padded
  feature array (a 1024×128 block), the whole 128×64 weight matrix and the whole length-64 bias, and stores

      block(p, q) = (∑ c, x(p, c) · W(c, q)) + b(q)

  into rows 1024·t … 1024·t + 1023 of the output array. Row r of the array lies in the block of point r / 1024 and
  of no other, and 98 · 1024 = 100352 rows is the whole array, so after the call the array is the affine layer
  `dense X W b` of the three arrays as the call found them, entry by entry.
-/
import proofs.«107908_j2774548873595_2_alg».proof.Proof.Gen.KernelIdeal.Frame
import proofs.«107908_j2774548873595_2_alg».proof.Proof.LibLinear
import Idealize.ShloMosaic.Lib.Pipeline.Value
import Idealize.ShloMosaic.Lib.ValueIdx

set_option maxRecDepth 16384

noncomputable section

namespace Cert.KernelIdeal.Layer0

open Idealize.ShloMosaic Idealize.ShloMosaic.TcCoe Idealize.ShloMosaic.ValueIdx Idealize.SL.Sem
open Cert.KernelIdeal Cert.KernelIdeal.Gen

/-- The body's stored value at entry (p, q) of its block: the affine layer of the three loaded blocks. -/
theorem payload_apply (x0 : Vec Ideal S1024x128 .f32) (x1 : Vec Ideal S128x64 .f32) (x2 : Vec Ideal S64 .f32)
    (p : Fin 1024) (q : Fin 64) :
    k0_pay1 (F := Ideal) x0 x1 x2 (ix2 p q) = Linear.dense x0 x1 x2 (ix2 p q) := by
  unfold k0_pay1
  exact Linear.kernel_apply _ rfl (by decide) none x0 x1 x2 _ _ _ _ p q

theorem zero2 : (![0, 0] : Fin 2 → Nat) = fun _ => 0 := funext fun a => by fin_cases a <;> rfl
theorem zero1 : (![0] : Fin 1 → Nat) = fun _ => 0 := funext fun a => by fin_cases a <;> rfl

/-- The printed index maps over the grid: the feature block and the output block of point t are block row t,
    the weights and the bias are the one whole block. -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- What point t writes back is block t of the affine layer of the arrays as the call finds them. -/
theorem flushed_eq (c : Dev nD) (t : Fin cfg0.N) :
    (dat0 V c).flushed 3 t
      = ((cfg0.win 3).blk t).view.read (Elt Ideal)
          (Linear.dense (V c main_v0 : S100352x128.Idx → EReal) (V c main_arg4 : S128x64.Idx → EReal)
            (V c main_arg5 : S64.Idx → EReal)) := by
  show (cfg0.win 3).cut (grid0.coords t) ((dat0 V c).after 3 t) = _
  rw [after0_3]
  unfold out0_3
  rw [View.canon_unit_zero zero2]
  simp only [View.ld_unit_zero (S := S1024x128) zero2, View.ld_unit_zero (S := S128x64) zero2,
    View.ld_unit_zero (S := S64) zero1]
  obtain ⟨e00, e01, e10, e11, e20, e30, e31⟩ := index_maps t
  funext j
  obtain ⟨p, q, rfl⟩ : ∃ (p : Fin 1024) (q : Fin 64), j = ix2 p q := ⟨j 0, j 1, eq_ix2 j⟩
  refine (payload_apply (iblk0 V c 0 t) (iblk0 V c 1 t) (iblk0 V c 2 t) p q).trans ?_
  rw [Linear.dense_apply]
  have hp : p.val < 1024 := p.isLt
  have hq : q.val < 64 := q.isLt
  have ht : t.val < 98 := lt_of_lt_of_eq t.isLt (N_0 : cfg0.N = 98)
  -- the entry of the array that sits at (p, q) of the output block
  have hout : ((cfg0.win 3).blk t).view.emb (ix2 p q)
      = (ix2 ⟨t.val * 1024 + p.val, by omega⟩ q : S100352x64.Idx) := by
    funext a; apply Fin.ext
    match a with
    | ⟨0, _⟩ => show win0_3.index t (0 : Fin 2) * 1024 + 1 * p.val = t.val * 1024 + p.val; omega
    | ⟨1, _⟩ => show win0_3.index t (1 : Fin 2) * 64 + 1 * q.val = q.val; omega
  show _ = Linear.dense _ _ _ (((cfg0.win 3).blk t).view.emb (ix2 p q))
  rw [hout, Linear.dense_apply]
  -- the bias block is the bias, the weight block the weights, the feature block rows 1024·t … of the features
  have hb : iblk0 V c 2 t (ix1 q) = V c main_arg5 (ix1 q : S64.Idx) := by
    show V c main_arg5 (((cfg0.win 2).blk t).view.emb (ix1 q)) = _
    refine congrArg (V c main_arg5) (funext fun a => Fin.ext ?_)
    match a with
    | ⟨0, _⟩ => show win0_2.index t (0 : Fin 1) * 64 + 1 * q.val = q.val; omega
  have hw : ∀ cc : Fin 128, iblk0 V c 1 t (ix2 cc q) = V c main_arg4 (ix2 cc q : S128x64.Idx) := fun cc => by
    show V c main_arg4 (((cfg0.win 1).blk t).view.emb (ix2 cc q)) = _
    refine congrArg (V c main_arg4) (funext fun a => Fin.ext ?_)
    match a with
    | ⟨0, _⟩ => show win0_1.index t (0 : Fin 2) * 128 + 1 * cc.val = cc.val; omega
    | ⟨1, _⟩ => show win0_1.index t (1 : Fin 2) * 64 + 1 * q.val = q.val; omega
  have hx : ∀ cc : Fin 128, iblk0 V c 0 t (ix2 p cc)
      = V c main_v0 (ix2 ⟨t.val * 1024 + p.val, by omega⟩ cc : S100352x128.Idx) := fun cc => by
    show V c main_v0 (((cfg0.win 0).blk t).view.emb (ix2 p cc)) = _
    refine congrArg (V c main_v0) (funext fun a => Fin.ext ?_)
    match a with
    | ⟨0, _⟩ => show win0_0.index t (0 : Fin 2) * 1024 + 1 * p.val = t.val * 1024 + p.val; omega
    | ⟨1, _⟩ => show win0_0.index t (1 : Fin 2) * 128 + 1 * cc.val = cc.val; omega
  rw [hb]
  refine congrArg (· + V c main_arg5 (ix1 q : S64.Idx)) (Finset.sum_congr rfl fun cc _ => ?_)
  rw [hx cc, hw cc]

/-- An entry of the output array is in point t's block iff each coordinate is in the block's range. -/
theorem mem_blk (t : Fin cfg0.N) (i : S100352x64.Idx) :
    i ∈ ((cfg0.win 3).blk t).view.set ↔ ∀ a : Fin 2, win0_3.index t a * S1024x64.size a ≤ (i a).val
      ∧ (i a).val < win0_3.index t a * S1024x64.size a + S1024x64.size a := by
  show i ∈ ((View.whole main_v1).slice (win0_3.rect t)).set ↔ _
  rw [View.set_slice_whole, Rect.mem_set_unit]
  exact Iff.rfl

/-- Every entry of the output array is written back by some point: row r by point r / 1024. -/
theorem covered (i : S100352x64.Idx) :
    ∃ t : Fin cfg0.N, (cfg0.win 3).flush t = true ∧ i ∈ ((cfg0.win 3).blk t).view.set := by
  have hN : cfg0.N = 98 := N_0
  have hi0 : (i 0).val < 100352 := (i 0).isLt
  have hi1 : (i 1).val < 64 := (i 1).isLt
  have hlt : (i 0).val / 1024 < cfg0.N := by rw [hN]; omega
  obtain ⟨-, -, -, -, -, e30, e31⟩ := index_maps ⟨(i 0).val / 1024, hlt⟩
  refine ⟨⟨(i 0).val / 1024, hlt⟩, flush0_3 _, ?_⟩
  rw [mem_blk]
  intro a
  match a with
  | ⟨0, _⟩ =>
    show win0_3.index ⟨(i 0).val / 1024, hlt⟩ (0 : Fin 2) * 1024 ≤ (i 0).val
      ∧ (i 0).val < win0_3.index ⟨(i 0).val / 1024, hlt⟩ (0 : Fin 2) * 1024 + 1024
    rw [e30]
    show (i 0).val / 1024 * 1024 ≤ (i 0).val ∧ (i 0).val < (i 0).val / 1024 * 1024 + 1024
    omega
  | ⟨1, _⟩ =>
    show win0_3.index ⟨(i 0).val / 1024, hlt⟩ (1 : Fin 2) * 64 ≤ (i 1).val
      ∧ (i 1).val < win0_3.index ⟨(i 0).val / 1024, hlt⟩ (1 : Fin 2) * 64 + 64
    omega

/-- THE OUTPUT ARRAY after the call: the affine layer of the feature, weight and bias arrays as the call found them. -/
theorem output (c : Dev nD) :
    (dat0 V c).arrAt 3 cfg0.N
      = Linear.dense (V c main_v0 : S100352x128.Idx → EReal) (V c main_arg4 : S128x64.Idx → EReal)
          (V c main_arg5 : S64.Idx → EReal) :=
  (dat0 V c).arrAt_eq_of_cover 3 _ (fun t _ => flushed_eq V c t) covered

end Cert.KernelIdeal.Layer0

end
-- ==== Proof.Layer1.lean ====
/-
  Pallas call 1 of the kernel program: what its output array holds when the call returns.

  The call walks 98 grid points. At point t the body is handed rows 1024·t … 1024·t + 1023 of the padded
  feature array (a 1024×64 block), the whole 64×64 weight matrix and the whole length-64 bias, and stores

      block(p, q) = (∑ c, x(p, c) · W(c, q)) + b(q)

  into rows 1024·t … 1024·t + 1023 of the output array. Row r of the array lies in the block of point r / 1024 and
  of no other, and 98 · 1024 = 100352 rows is the whole array, so after the call the array is the affine layer
  `dense X W b` of the three arrays as the call found them, entry by entry.
-/
import proofs.«107908_j2774548873595_2_alg».proof.Proof.Gen.KernelIdeal.Frame
import proofs.«107908_j2774548873595_2_alg».proof.Proof.LibLinear
import Idealize.ShloMosaic.Lib.Pipeline.Value
import Idealize.ShloMosaic.Lib.ValueIdx

set_option maxRecDepth 16384

noncomputable section

namespace Cert.KernelIdeal.Layer1

open Idealize.ShloMosaic Idealize.ShloMosaic.TcCoe Idealize.ShloMosaic.ValueIdx Idealize.SL.Sem
open Cert.KernelIdeal Cert.KernelIdeal.Gen

/-- The body's stored value at entry (p, q) of its block: the affine layer of the three loaded blocks. -/
theorem payload_apply (x0 : Vec Ideal S1024x64 .f32) (x1 : Vec Ideal S64x64 .f32) (x2 : Vec Ideal S64 .f32)
    (p : Fin 1024) (q : Fin 64) :
    k1_pay1 (F := Ideal) x0 x1 x2 (ix2 p q) = Linear.dense x0 x1 x2 (ix2 p q) := by
  unfold k1_pay1
  exact Linear.kernel_apply _ rfl (by decide) none x0 x1 x2 _ _ _ _ p q

theorem zero2 : (![0, 0] : Fin 2 → Nat) = fun _ => 0 := funext fun a => by fin_cases a <;> rfl
theorem zero1 : (![0] : Fin 1 → Nat) = fun _ => 0 := funext fun a => by fin_cases a <;> rfl

/-- The printed index maps over the grid: the feature block and the output block of point t are block row t,
    the weights and the bias are the one whole block. -/
theorem index_maps : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-- What point t writes back is block t of the affine layer of the arrays as the call finds them. -/
theorem flushed_eq (c : Dev nD) (t : Fin cfg1.N) :
    (dat1 V c).flushed 3 t
      = ((cfg1.win 3).blk t).view.read (Elt Ideal)
          (Linear.dense (V c main_v17 : S100352x64.Idx → EReal) (V c main_arg6 : S64x64.Idx → EReal)
            (V c main_arg7 : S64.Idx → EReal)) := by
  show (cfg1.win 3).cut (grid1.coords t) ((dat1 V c).after 3 t) = _
  rw [after1_3]
  unfold out1_3
  rw [View.canon_unit_zero zero2]
  simp only [View.ld_unit_zero (S := S1024x64) zero2, View.ld_unit_zero (S := S64x64) zero2,
    View.ld_unit_zero (S := S64) zero1]
  obtain ⟨e00, e01, e10, e11, e20, e30, e31⟩ := index_maps t
  funext j
  obtain ⟨p, q, rfl⟩ : ∃ (p : Fin 1024) (q : Fin 64), j = ix2 p q := ⟨j 0, j 1, eq_ix2 j⟩
  refine (payload_apply (iblk1 V c 0 t) (iblk1 V c 1 t) (iblk1 V c 2 t) p q).trans ?_
  rw [Linear.dense_apply]
  have hp : p.val < 1024 := p.isLt
  have hq : q.val < 64 := q.isLt
  have ht : t.val < 98 := lt_of_lt_of_eq t.isLt (N_1 : cfg1.N = 98)
  -- the entry of the array that sits at (p, q) of the output block
  have hout : ((cfg1.win 3).blk t).view.emb (ix2 p q)
      = (ix2 ⟨t.val * 1024 + p.val, by omega⟩ q : S100352x64.Idx) := by
    funext a; apply Fin.ext
    match a with
    | ⟨0, _⟩ => show win1_3.index t (0 : Fin 2) * 1024 + 1 * p.val = t.val * 1024 + p.val; omega
    | ⟨1, _⟩ => show win1_3.index t (1 : Fin 2) * 64 + 1 * q.val = q.val; omega
  show _ = Linear.dense _ _ _ (((cfg1.win 3).blk t).view.emb (ix2 p q))
  rw [hout, Linear.dense_apply]
  -- the bias block is the bias, the weight block the weights, the feature block rows 1024·t … of the features
  have hb : iblk1 V c 2 t (ix1 q) = V c main_arg7 (ix1 q : S64.Idx) := by
    show V c main_arg7 (((cfg1.win 2).blk t).view.emb (ix1 q)) = _
    refine congrArg (V c main_arg7) (funext fun a => Fin.ext ?_)
    match a with
    | ⟨0, _⟩ => show win1_2.index t (0 : Fin 1) * 64 + 1 * q.val = q.val; omega
  have hw : ∀ cc : Fin 64, iblk1 V c 1 t (ix2 cc q) = V c main_arg6 (ix2 cc q : S64x64.Idx) := fun cc => by
    show V c main_arg6 (((cfg1.win 1).blk t).view.emb (ix2 cc q)) = _
    refine congrArg (V c main_arg6) (funext fun a => Fin.ext ?_)
    match a with
    | ⟨0, _⟩ => show win1_1.index t (0 : Fin 2) * 64 + 1 * cc.val = cc.val; omega
    | ⟨1, _⟩ => show win1_1.index t (1 : Fin 2) * 64 + 1 * q.val = q.val; omega
  have hx : ∀ cc : Fin 64, iblk1 V c 0 t (ix2 p cc)
      = V c main_v17 (ix2 ⟨t.val * 1024 + p.val, by omega⟩ cc : S100352x64.Idx) := fun cc => by
    show V c main_v17 (((cfg1.win 0).blk t).view.emb (ix2 p cc)) = _
    refine congrArg (V c main_v17) (funext fun a => Fin.ext ?_)
    match a with
    | ⟨0, _⟩ => show win1_0.index t (0 : Fin 2) * 1024 + 1 * p.val = t.val * 1024 + p.val; omega
    | ⟨1, _⟩ => show win1_0.index t (1 : Fin 2) * 64 + 1 * cc.val = cc.val; omega
  rw [hb]
  refine congrArg (· + V c main_arg7 (ix1 q : S64.Idx)) (Finset.sum_congr rfl fun cc _ => ?_)
  rw [hx cc, hw cc]

/-- An entry of the output array is in point t's block iff each coordinate is in the block's range. -/
theorem mem_blk (t : Fin cfg1.N) (i : S100352x64.Idx) :
    i ∈ ((cfg1.win 3).blk t).view.set ↔ ∀ a : Fin 2, win1_3.index t a * S1024x64.size a ≤ (i a).val
      ∧ (i a).val < win1_3.index t a * S1024x64.size a + S1024x64.size a := by
  show i ∈ ((View.whole main_v18).slice (win1_3.rect t)).set ↔ _
  rw [View.set_slice_whole, Rect.mem_set_unit]
  exact Iff.rfl

/-- Every entry of the output array is written back by some point: row r by point r / 1024. -/
theorem covered (i : S100352x64.Idx) :
    ∃ t : Fin cfg1.N, (cfg1.win 3).flush t = true ∧ i ∈ ((cfg1.win 3).blk t).view.set := by
  have hN : cfg1.N = 98 := N_1
  have hi0 : (i 0).val < 100352 := (i 0).isLt
  have hi1 : (i 1).val < 64 := (i 1).isLt
  have hlt : (i 0).val / 1024 < cfg1.N := by rw [hN]; omega
  obtain ⟨-, -, -, -, -, e30, e31⟩ := index_maps ⟨(i 0).val / 1024, hlt⟩
  refine ⟨⟨(i 0).val / 1024, hlt⟩, flush1_3 _, ?_⟩
  rw [mem_blk]
  intro a
  match a with
  | ⟨0, _⟩ =>
    show win1_3.index ⟨(i 0).val / 1024, hlt⟩ (0 : Fin 2) * 1024 ≤ (i 0).val
      ∧ (i 0).val < win1_3.index ⟨(i 0).val / 1024, hlt⟩ (0 : Fin 2) * 1024 + 1024
    rw [e30]
    show (i 0).val / 1024 * 1024 ≤ (i 0).val ∧ (i 0).val < (i 0).val / 1024 * 1024 + 1024
    omega
  | ⟨1, _⟩ =>
    show win1_3.index ⟨(i 0).val / 1024, hlt⟩ (1 : Fin 2) * 64 ≤ (i 1).val
      ∧ (i 1).val < win1_3.index ⟨(i 0).val / 1024, hlt⟩ (1 : Fin 2) * 64 + 64
    omega

/-- THE OUTPUT ARRAY after the call: the affine layer of the feature, weight and bias arrays as the call found them. -/
theorem output (c : Dev nD) :
    (dat1 V c).arrAt 3 cfg1.N
      = Linear.dense (V c main_v17 : S100352x64.Idx → EReal) (V c main_arg6 : S64x64.Idx → EReal)
          (V c main_arg7 : S64.Idx → EReal) :=
  (dat1 V c).arrAt_eq_of_cover 3 _ (fun t _ => flushed_eq V c t) covered

end Cert.KernelIdeal.Layer1

end
-- ==== Proof.Layer2.lean ====
/-
  Pallas call 2 of the kernel program: what its output array holds when the call returns.

  The call walks 98 grid points. At point t the body is handed rows 1024·t … 1024·t + 1023 of the padded
  feature array (a 1024×64 block), the whole 64×64 weight matrix and the whole length-64 bias, and stores

      block(p, q) = (∑ c, x(p, c) · W(c, q)) + b(q)

  into rows 1024·t … 1024·t + 1023 of the output array. Row r of the array lies in the block of point r / 1024 and
  of no other, and 98 · 1024 = 100352 rows is the whole array, so after the call the array is the affine layer
  `dense X W b` of the three arrays as the call found them, entry by entry.
-/
import proofs.«107908_j2774548873595_2_alg».proof.Proof.Gen.KernelIdeal.Frame
import proofs.«107908_j2774548873595_2_alg».proof.Proof.LibLinear
import Idealize.ShloMosaic.Lib.Pipeline.Value
import Idealize.ShloMosaic.Lib.ValueIdx

set_option maxRecDepth 16384

noncomputable section

namespace Cert.KernelIdeal.Layer2

open Idealize.ShloMosaic Idealize.ShloMosaic.TcCoe Idealize.ShloMosaic.ValueIdx Idealize.SL.Sem
open Cert.KernelIdeal Cert.KernelIdeal.Gen

/-- The body's stored value at entry (p, q) of its block: the affine layer of the three loaded blocks. -/
theorem payload_apply (x0 : Vec Ideal S1024x64 .f32) (x1 : Vec Ideal S64x64 .f32) (x2 : Vec Ideal S64 .f32)
    (p : Fin 1024) (q : Fin 64) :
    k2_pay1 (F := Ideal) x0 x1 x2 (ix2 p q) = Linear.dense x0 x1 x2 (ix2 p q) := by
  unfold k2_pay1
  exact Linear.kernel_apply _ rfl (by decide) none x0 x1 x2 _ _ _ _ p q

theorem zero2 : (![0, 0] : Fin 2 → Nat) = fun _ => 0 := funext fun a => by fin_cases a <;> rfl
theorem zero1 : (![0] : Fin 1 → Nat) = fun _ => 0 := funext fun a => by fin_cases a <;> rfl

/-- The printed index maps over the grid: the feature block and the output block of point t are block row t,
    the weights and the bias are the one whole block. -/
theorem index_maps : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = t.val ∧ win2_3.index t (1 : Fin 2) = 0 :=
  (by decide +kernel : ∀ t : Fin grid2.N, _)

variable (V : (c : Dev nD) → (b : Ref sig .tc) → Buf (Elt Ideal) ((c : Thread nD τ).loc b))

/-- What point t writes back is block t of the affine layer of the arrays as the call finds them. -/
theorem flushed_eq (c : Dev nD) (t : Fin cfg2.N) :
    (dat2 V c).flushed 3 t
      = ((cfg2.win 3).blk t).view.read (Elt Ideal)
          (Linear.dense (V c main_v34 : S100352x64.Idx → EReal) (V c main_arg8 : S64x64.Idx → EReal)
            (V c main_arg9 : S64.Idx → EReal)) := by
  show (cfg2.win 3).cut (grid2.coords t) ((dat2 V c).after 3 t) = _
  rw [after2_3]
  unfold out2_3
  rw [View.canon_unit_zero zero2]
  simp only [View.ld_unit_zero (S := S1024x64) zero2, View.ld_unit_zero (S := S64x64) zero2,
    View.ld_unit_zero (S := S64) zero1]
  obtain ⟨e00, e01, e10, e11, e20, e30, e31⟩ := index_maps t
  funext j
  obtain ⟨p, q, rfl⟩ : ∃ (p : Fin 1024) (q : Fin 64), j = ix2 p q := ⟨j 0, j 1, eq_ix2 j⟩
  refine (payload_apply (iblk2 V c 0 t) (iblk2 V c 1 t) (iblk2 V c 2 t) p q).trans ?_
  rw [Linear.dense_apply]
  have hp : p.val < 1024 := p.isLt
  have hq : q.val < 64 := q.isLt
  have ht : t.val < 98 := lt_of_lt_of_eq t.isLt (N_2 : cfg2.N = 98)
  -- the entry of the array that sits at (p, q) of the output block
  have hout : ((cfg2.win 3).blk t).view.emb (ix2 p q)
      = (ix2 ⟨t.val * 1024 + p.val, by omega⟩ q : S100352x64.Idx) := by
    funext a; apply Fin.ext
    match a with
    | ⟨0, _⟩ => show win2_3.index t (0 : Fin 2) * 1024 + 1 * p.val = t.val * 1024 + p.val; omega
    | ⟨1, _⟩ => show win2_3.index t (1 : Fin 2) * 64 + 1 * q.val = q.val; omega
  show _ = Linear.dense _ _ _ (((cfg2.win 3).blk t).view.emb (ix2 p q))
  rw [hout, Linear.dense_apply]
  -- the bias block is the bias, the weight block the weights, the feature block rows 1024·t … of the features
  have hb : iblk2 V c 2 t (ix1 q) = V c main_arg9 (ix1 q : S64.Idx) := by
    show V c main_arg9 (((cfg2.win 2).blk t).view.emb (ix1 q)) = _
    refine congrArg (V c main_arg9) (funext fun a => Fin.ext ?_)
    match a with
    | ⟨0, _⟩ => show win2_2.index t (0 : Fin 1) * 64 + 1 * q.val = q.val; omega
  have hw : ∀ cc : Fin 64, iblk2 V c 1 t (ix2 cc q) = V c main_arg8 (ix2 cc q : S64x64.Idx) := fun cc => by
    show V c main_arg8 (((cfg2.win 1).blk t).view.emb (ix2 cc q)) = _
    refine congrArg (V c main_arg8) (funext fun a => Fin.ext ?_)
    match a with
    | ⟨0, _⟩ => show win2_1.index t (0 : Fin 2) * 64 + 1 * cc.val = cc.val; omega
    | ⟨1, _⟩ => show win2_1.index t (1 : Fin 2) * 64 + 1 * q.val = q.val; omega
  have hx : ∀ cc : Fin 64, iblk2 V c 0 t (ix2 p cc)
      = V c main_v34 (ix2 ⟨t.val * 1024 + p.val, by omega⟩ cc : S100352x64.Idx) := fun cc => by
    show V c main_v34 (((cfg2.win 0).blk t).view.emb (ix2 p cc)) = _
    refine congrArg (V c main_v34) (funext fun a => Fin.ext ?_)
    match a with
    | ⟨0, _⟩ => show win2_0.index t (0 : Fin 2) * 1024 + 1 * p.val = t.val * 1024 + p.val; omega
    | ⟨1, _⟩ => show win2_0.index t (1 : Fin 2) * 64 + 1 * cc.val = cc.val; omega
  rw [hb]
  refine congrArg (· + V c main_arg9 (ix1 q : S64.Idx)) (Finset.sum_congr rfl fun cc _ => ?_)
  rw [hx cc, hw cc]

/-- An entry of the output array is in point t's block iff each coordinate is in the block's range. -/
theorem mem_blk (t : Fin cfg2.N) (i : S100352x64.Idx) :
    i ∈ ((cfg2.win 3).blk t).view.set ↔ ∀ a : Fin 2, win2_3.index t a * S1024x64.size a ≤ (i a).val
      ∧ (i a).val < win2_3.index t a * S1024x64.size a + S1024x64.size a := by
  show i ∈ ((View.whole main_v35).slice (win2_3.rect t)).set ↔ _
  rw [View.set_slice_whole, Rect.mem_set_unit]
  exact Iff.rfl

/-- Every entry of the output array is written back by some point: row r by point r / 1024. -/
theorem covered (i : S100352x64.Idx) :
    ∃ t : Fin cfg2.N, (cfg2.win 3).flush t = true ∧ i ∈ ((cfg2.win 3).blk t).view.set := by
  have hN : cfg2.N = 98 := N_2
  have hi0 : (i 0).val < 100352 := (i 0).isLt
  have hi1 : (i 1).val < 64 := (i 1).isLt
  have hlt : (i 0).val / 1024 < cfg2.N := by rw [hN]; omega
  obtain ⟨-, -, -, -, -, e30, e31⟩ := index_maps ⟨(i 0).val / 1024, hlt⟩
  refine ⟨⟨(i 0).val / 1024, hlt⟩, flush2_3 _, ?_⟩
  rw [mem_blk]
  intro a
  match a with
  | ⟨0, _⟩ =>
    show win2_3.index ⟨(i 0).val / 1024, hlt⟩ (0 : Fin 2) * 1024 ≤ (i 0).val
      ∧ (i 0).val < win2_3.index ⟨(i 0).val / 1024, hlt⟩ (0 : Fin 2) * 1024 + 1024
    rw [e30]
    show (i 0).val / 1024 * 1024 ≤ (i 0).val ∧ (i 0).val < (i 0).val / 1024 * 1024 + 1024
    omega
  | ⟨1, _⟩ =>
    show win2_3.index ⟨(i 0).val / 1024, hlt⟩ (1 : Fin 2) * 64 ≤ (i 1).val
      ∧ (i 1).val < win2_3.index ⟨(i 0).val / 1024, hlt⟩ (1 : Fin 2) * 64 + 64
    omega

/-- THE OUTPUT ARRAY after the call: the affine layer of the feature, weight and bias arrays as the call found them. -/
theorem output (c : Dev nD) :
    (dat2 V c).arrAt 3 cfg2.N
      = Linear.dense (V c main_v34 : S100352x64.Idx → EReal) (V c main_arg8 : S64x64.Idx → EReal)
          (V c main_arg9 : S64.Idx → EReal) :=
  (dat2 V c).arrAt_eq_of_cover 3 _ (fun t _ => flushed_eq V c t) covered

end Cert.KernelIdeal.Layer2

end
-- ==== Proof.Layer3.lean ====
/-
  Pallas call 3 of the kernel program: what its output array holds when the call returns.

  The call walks 98 grid points. At point t the body is handed rows 1024·t … 1024·t + 1023 of the padded
  feature array (a 1024×64 block), the whole 64×64 weight matrix and the whole length-64 bias, and stores

      block(p, q) = (∑ c, x(p, c) · W(c, q)) + b(q)

  into rows 1024·t … 1024·t + 1023 of the output array. Row r of the array lies in the block of point r / 1024 and
  of no other, and 98 · 1024 = 100352 rows is the whole array, so after the call the array is the affine layer
  `dense X W b` of the three arrays as the call found them, entry by entry.
-/
import proofs.«107908_j2774548873595_2_alg».proof.Proof.Gen.KernelIdeal.Frame
import proofs.«107908_j2774548873595_2_alg».proof.Proof.LibLinear
import Idealize.ShloMosaic.Lib.Pipeline.Value
import Idealize.ShloMosaic.Lib.ValueIdx

set_option maxRecDepth 16384

noncomputable section

namespace Cert.KernelIdeal.Layer3

open Idealize.ShloMosaic Idealize.ShloMosaic.TcCoe Idealize.ShloMosaic.ValueIdx Idealize.SL.Sem
open Cert.KernelIdeal Cert.KernelIdeal.Gen

/-- The body's stored value at entry (p, q) of its block: the affine layer of the three loaded blocks. -/
theorem payload_apply (x0 : Vec Ideal S1024x64 .f32) (x1 : Vec Ideal S64x64 .f32) (x2 : Vec Ideal S64 .f32)
    (p : Fin 1024) (q : Fin 64) :
    k3_pay1 (F := Ideal) x0 x1 x2 (ix2 p q) = Linear.dense x0 x1 x2 (ix2 p q) := by
  unfold k3_pay1
  exact Linear.kernel_apply _ rfl (by decide) none x0 x1 x2 _ _ _ _ p q

theorem zero2 : (![0, 0] : Fin 2 → Nat) = fun _ => 0 := funext fun a => by fin_cases a <;> rfl
theorem zero1 : (![0] : Fin 1 → Nat) = fun _ => 0 := funext fun a => by fin_cases a <;> rfl

/-- The printed index maps over the grid: the feature block and the output block of point t are block row t,
    the weights and the bias are the one whole block. -/
theorem index_maps : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 1) = 0
    ∧ win3_3.index t (0 : Fin 2) = t.val ∧ win3_3.index t (1 : Fin 2) = 0 :=
  (by decide +kernel : ∀ t : Fin grid3.N, _)

variable (V : (c : Dev nD) → (b : Ref sig .tc) → Buf (Elt Ideal) ((c : Thread nD τ).loc b))

/-- What point t writes back is block t of the affine layer of the arrays as the call finds them. -/
theorem flushed_eq (c : Dev nD) (t : Fin cfg3.N) :
    (dat3 V c).flushed 3 t
      = ((cfg3.win 3).blk t).view.read (Elt Ideal)
          (Linear.dense (V c main_v51 : S100352x64.Idx → EReal) (V c main_arg10 : S64x64.Idx → EReal)
            (V c main_arg11 : S64.Idx → EReal)) := by
  show (cfg3.win 3).cut (grid3.coords t) ((dat3 V c).after 3 t) = _
  rw [after3_3]
  unfold out3_3
  rw [View.canon_unit_zero zero2]
  simp only [View.ld_unit_zero (S := S1024x64) zero2, View.ld_unit_zero (S := S64x64) zero2,
    View.ld_unit_zero (S := S64) zero1]
  obtain ⟨e00, e01, e10, e11, e20, e30, e31⟩ := index_maps t
  funext j
  obtain ⟨p, q, rfl⟩ : ∃ (p : Fin 1024) (q : Fin 64), j = ix2 p q := ⟨j 0, j 1, eq_ix2 j⟩
  refine (payload_apply (iblk3 V c 0 t) (iblk3 V c 1 t) (iblk3 V c 2 t) p q).trans ?_
  rw [Linear.dense_apply]
  have hp : p.val < 1024 := p.isLt
  have hq : q.val < 64 := q.isLt
  have ht : t.val < 98 := lt_of_lt_of_eq t.isLt (N_3 : cfg3.N = 98)
  -- the entry of the array that sits at (p, q) of the output block
  have hout : ((cfg3.win 3).blk t).view.emb (ix2 p q)
      = (ix2 ⟨t.val * 1024 + p.val, by omega⟩ q : S100352x64.Idx) := by
    funext a; apply Fin.ext
    match a with
    | ⟨0, _⟩ => show win3_3.index t (0 : Fin 2) * 1024 + 1 * p.val = t.val * 1024 + p.val; omega
    | ⟨1, _⟩ => show win3_3.index t (1 : Fin 2) * 64 + 1 * q.val = q.val; omega
  show _ = Linear.dense _ _ _ (((cfg3.win 3).blk t).view.emb (ix2 p q))
  rw [hout, Linear.dense_apply]
  -- the bias block is the bias, the weight block the weights, the feature block rows 1024·t … of the features
  have hb : iblk3 V c 2 t (ix1 q) = V c main_arg11 (ix1 q : S64.Idx) := by
    show V c main_arg11 (((cfg3.win 2).blk t).view.emb (ix1 q)) = _
    refine congrArg (V c main_arg11) (funext fun a => Fin.ext ?_)
    match a with
    | ⟨0, _⟩ => show win3_2.index t (0 : Fin 1) * 64 + 1 * q.val = q.val; omega
  have hw : ∀ cc : Fin 64, iblk3 V c 1 t (ix2 cc q) = V c main_arg10 (ix2 cc q : S64x64.Idx) := fun cc => by
    show V c main_arg10 (((cfg3.win 1).blk t).view.emb (ix2 cc q)) = _
    refine congrArg (V c main_arg10) (funext fun a => Fin.ext ?_)
    match a with
    | ⟨0, _⟩ => show win3_1.index t (0 : Fin 2) * 64 + 1 * cc.val = cc.val; omega
    | ⟨1, _⟩ => show win3_1.index t (1 : Fin 2) * 64 + 1 * q.val = q.val; omega
  have hx : ∀ cc : Fin 64, iblk3 V c 0 t (ix2 p cc)
      = V c main_v51 (ix2 ⟨t.val * 1024 + p.val, by omega⟩ cc : S100352x64.Idx) := fun cc => by
    show V c main_v51 (((cfg3.win 0).blk t).view.emb (ix2 p cc)) = _
    refine congrArg (V c main_v51) (funext fun a => Fin.ext ?_)
    match a with
    | ⟨0, _⟩ => show win3_0.index t (0 : Fin 2) * 1024 + 1 * p.val = t.val * 1024 + p.val; omega
    | ⟨1, _⟩ => show win3_0.index t (1 : Fin 2) * 64 + 1 * cc.val = cc.val; omega
  rw [hb]
  refine congrArg (· + V c main_arg11 (ix1 q : S64.Idx)) (Finset.sum_congr rfl fun cc _ => ?_)
  rw [hx cc, hw cc]

/-- An entry of the output array is in point t's block iff each coordinate is in the block's range. -/
theorem mem_blk (t : Fin cfg3.N) (i : S100352x64.Idx) :
    i ∈ ((cfg3.win 3).blk t).view.set ↔ ∀ a : Fin 2, win3_3.index t a * S1024x64.size a ≤ (i a).val
      ∧ (i a).val < win3_3.index t a * S1024x64.size a + S1024x64.size a := by
  show i ∈ ((View.whole main_v52).slice (win3_3.rect t)).set ↔ _
  rw [View.set_slice_whole, Rect.mem_set_unit]
  exact Iff.rfl

/-- Every entry of the output array is written back by some point: row r by point r / 1024. -/
theorem covered (i : S100352x64.Idx) :
    ∃ t : Fin cfg3.N, (cfg3.win 3).flush t = true ∧ i ∈ ((cfg3.win 3).blk t).view.set := by
  have hN : cfg3.N = 98 := N_3
  have hi0 : (i 0).val < 100352 := (i 0).isLt
  have hi1 : (i 1).val < 64 := (i 1).isLt
  have hlt : (i 0).val / 1024 < cfg3.N := by rw [hN]; omega
  obtain ⟨-, -, -, -, -, e30, e31⟩ := index_maps ⟨(i 0).val / 1024, hlt⟩
  refine ⟨⟨(i 0).val / 1024, hlt⟩, flush3_3 _, ?_⟩
  rw [mem_blk]
  intro a
  match a with
  | ⟨0, _⟩ =>
    show win3_3.index ⟨(i 0).val / 1024, hlt⟩ (0 : Fin 2) * 1024 ≤ (i 0).val
      ∧ (i 0).val < win3_3.index ⟨(i 0).val / 1024, hlt⟩ (0 : Fin 2) * 1024 + 1024
    rw [e30]
    show (i 0).val / 1024 * 1024 ≤ (i 0).val ∧ (i 0).val < (i 0).val / 1024 * 1024 + 1024
    omega
  | ⟨1, _⟩ =>
    show win3_3.index ⟨(i 0).val / 1024, hlt⟩ (1 : Fin 2) * 64 ≤ (i 1).val
      ∧ (i 1).val < win3_3.index ⟨(i 0).val / 1024, hlt⟩ (1 : Fin 2) * 64 + 64
    omega

/-- THE OUTPUT ARRAY after the call: the affine layer of the feature, weight and bias arrays as the call found them. -/
theorem output (c : Dev nD) :
    (dat3 V c).arrAt 3 cfg3.N
      = Linear.dense (V c main_v51 : S100352x64.Idx → EReal) (V c main_arg10 : S64x64.Idx → EReal)
          (V c main_arg11 : S64.Idx → EReal) :=
  (dat3 V c).arrAt_eq_of_cover 3 _ (fun t _ => flushed_eq V c t) covered

end Cert.KernelIdeal.Layer3

end
-- ==== Proof.Layer4.lean ====
/-
  Pallas call 4 of the kernel program: what its output array holds when the call returns.

  The call walks 98 grid points. At point t the body is handed rows 1024·t … 1024·t + 1023 of the padded
  feature array (a 1024×64 block), the whole 64×10 weight matrix and the whole length-10 bias, and stores

      block(p, q) = (∑ c, x(p, c) · W(c, q)) + b(q)

  into rows 1024·t … 1024·t + 1023 of the output array. Row r of the array lies in the block of point r / 1024 and
  of no other, and 98 · 1024 = 100352 rows is the whole array, so after the call the array is the affine layer
  `dense X W b` of the three arrays as the call found them, entry by entry.
-/
import proofs.«107908_j2774548873595_2_alg».proof.Proof.Gen.KernelIdeal.Frame
import proofs.«107908_j2774548873595_2_alg».proof.Proof.LibLinear
import Idealize.ShloMosaic.Lib.Pipeline.Value
import Idealize.ShloMosaic.Lib.ValueIdx

set_option maxRecDepth 16384

noncomputable section

namespace Cert.KernelIdeal.Layer4

open Idealize.ShloMosaic Idealize.ShloMosaic.TcCoe Idealize.ShloMosaic.ValueIdx Idealize.SL.Sem
open Cert.KernelIdeal Cert.KernelIdeal.Gen

/-- The body's stored value at entry (p, q) of its block: the affine layer of the three loaded blocks. -/
theorem payload_apply (x0 : Vec Ideal S1024x64 .f32) (x1 : Vec Ideal S64x10 .f32) (x2 : Vec Ideal S10 .f32)
    (p : Fin 1024) (q : Fin 10) :
    k4_pay1 (F := Ideal) x0 x1 x2 (ix2 p q) = Linear.dense x0 x1 x2 (ix2 p q) := by
  unfold k4_pay1
  exact Linear.kernel_apply _ rfl (by decide) none x0 x1 x2 _ _ _ _ p q

theorem zero2 : (![0, 0] : Fin 2 → Nat) = fun _ => 0 := funext fun a => by fin_cases a <;> rfl
theorem zero1 : (![0] : Fin 1 → Nat) = fun _ => 0 := funext fun a => by fin_cases a <;> rfl

/-- The printed index maps over the grid: the feature block and the output block of point t are block row t,
    the weights and the bias are the one whole block. -/
theorem index_maps : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 1) = 0
    ∧ win4_3.index t (0 : Fin 2) = t.val ∧ win4_3.index t (1 : Fin 2) = 0 :=
  (by decide +kernel : ∀ t : Fin grid4.N, _)

variable (V : (c : Dev nD) → (b : Ref sig .tc) → Buf (Elt Ideal) ((c : Thread nD τ).loc b))

/-- What point t writes back is block t of the affine layer of the arrays as the call finds them. -/
theorem flushed_eq (c : Dev nD) (t : Fin cfg4.N) :
    (dat4 V c).flushed 3 t
      = ((cfg4.win 3).blk t).view.read (Elt Ideal)
          (Linear.dense (V c main_v68 : S100352x64.Idx → EReal) (V c main_arg12 : S64x10.Idx → EReal)
            (V c main_arg13 : S10.Idx → EReal)) := by
  show (cfg4.win 3).cut (grid4.coords t) ((dat4 V c).after 3 t) = _
  rw [after4_3]
  unfold out4_3
  rw [View.canon_unit_zero zero2]
  simp only [View.ld_unit_zero (S := S1024x64) zero2, View.ld_unit_zero (S := S64x10) zero2,
    View.ld_unit_zero (S := S10) zero1]
  obtain ⟨e00, e01, e10, e11, e20, e30, e31⟩ := index_maps t
  funext j
  obtain ⟨p, q, rfl⟩ : ∃ (p : Fin 1024) (q : Fin 10), j = ix2 p q := ⟨j 0, j 1, eq_ix2 j⟩
  refine (payload_apply (iblk4 V c 0 t) (iblk4 V c 1 t) (iblk4 V c 2 t) p q).trans ?_
  rw [Linear.dense_apply]
  have hp : p.val < 1024 := p.isLt
  have hq : q.val < 10 := q.isLt
  have ht : t.val < 98 := lt_of_lt_of_eq t.isLt (N_4 : cfg4.N = 98)
  -- the entry of the array that sits at (p, q) of the output block
  have hout : ((cfg4.win 3).blk t).view.emb (ix2 p q)
      = (ix2 ⟨t.val * 1024 + p.val, by omega⟩ q : S100352x10.Idx) := by
    funext a; apply Fin.ext
    match a with
    | ⟨0, _⟩ => show win4_3.index t (0 : Fin 2) * 1024 + 1 * p.val = t.val * 1024 + p.val; omega
    | ⟨1, _⟩ => show win4_3.index t (1 : Fin 2) * 10 + 1 * q.val = q.val; omega
  show _ = Linear.dense _ _ _ (((cfg4.win 3).blk t).view.emb (ix2 p q))
  rw [hout, Linear.dense_apply]
  -- the bias block is the bias, the weight block the weights, the feature block rows 1024·t … of the features
  have hb : iblk4 V c 2 t (ix1 q) = V c main_arg13 (ix1 q : S10.Idx) := by
    show V c main_arg13 (((cfg4.win 2).blk t).view.emb (ix1 q)) = _
    refine congrArg (V c main_arg13) (funext fun a => Fin.ext ?_)
    match a with
    | ⟨0, _⟩ => show win4_2.index t (0 : Fin 1) * 10 + 1 * q.val = q.val; omega
  have hw : ∀ cc : Fin 64, iblk4 V c 1 t (ix2 cc q) = V c main_arg12 (ix2 cc q : S64x10.Idx) := fun cc => by
    show V c main_arg12 (((cfg4.win 1).blk t).view.emb (ix2 cc q)) = _
    refine congrArg (V c main_arg12) (funext fun a => Fin.ext ?_)
    match a with
    | ⟨0, _⟩ => show win4_1.index t (0 : Fin 2) * 64 + 1 * cc.val = cc.val; omega
    | ⟨1, _⟩ => show win4_1.index t (1 : Fin 2) * 10 + 1 * q.val = q.val; omega
  have hx : ∀ cc : Fin 64, iblk4 V c 0 t (ix2 p cc)
      = V c main_v68 (ix2 ⟨t.val * 1024 + p.val, by omega⟩ cc : S100352x64.Idx) := fun cc => by
    show V c main_v68 (((cfg4.win 0).blk t).view.emb (ix2 p cc)) = _
    refine congrArg (V c main_v68) (funext fun a => Fin.ext ?_)
    match a with
    | ⟨0, _⟩ => show win4_0.index t (0 : Fin 2) * 1024 + 1 * p.val = t.val * 1024 + p.val; omega
    | ⟨1, _⟩ => show win4_0.index t (1 : Fin 2) * 64 + 1 * cc.val = cc.val; omega
  rw [hb]
  refine congrArg (· + V c main_arg13 (ix1 q : S10.Idx)) (Finset.sum_congr rfl fun cc _ => ?_)
  rw [hx cc, hw cc]

/-- An entry of the output array is in point t's block iff each coordinate is in the block's range. -/
theorem mem_blk (t : Fin cfg4.N) (i : S100352x10.Idx) :
    i ∈ ((cfg4.win 3).blk t).view.set ↔ ∀ a : Fin 2, win4_3.index t a * S1024x10.size a ≤ (i a).val
      ∧ (i a).val < win4_3.index t a * S1024x10.size a + S1024x10.size a := by
  show i ∈ ((View.whole main_v69).slice (win4_3.rect t)).set ↔ _
  rw [View.set_slice_whole, Rect.mem_set_unit]
  exact Iff.rfl

/-- Every entry of the output array is written back by some point: row r by point r / 1024. -/
theorem covered (i : S100352x10.Idx) :
    ∃ t : Fin cfg4.N, (cfg4.win 3).flush t = true ∧ i ∈ ((cfg4.win 3).blk t).view.set := by
  have hN : cfg4.N = 98 := N_4
  have hi0 : (i 0).val < 100352 := (i 0).isLt
  have hi1 : (i 1).val < 10 := (i 1).isLt
  have hlt : (i 0).val / 1024 < cfg4.N := by rw [hN]; omega
  obtain ⟨-, -, -, -, -, e30, e31⟩ := index_maps ⟨(i 0).val / 1024, hlt⟩
  refine ⟨⟨(i 0).val / 1024, hlt⟩, flush4_3 _, ?_⟩
  rw [mem_blk]
  intro a
  match a with
  | ⟨0, _⟩ =>
    show win4_3.index ⟨(i 0).val / 1024, hlt⟩ (0 : Fin 2) * 1024 ≤ (i 0).val
      ∧ (i 0).val < win4_3.index ⟨(i 0).val / 1024, hlt⟩ (0 : Fin 2) * 1024 + 1024
    rw [e30]
    show (i 0).val / 1024 * 1024 ≤ (i 0).val ∧ (i 0).val < (i 0).val / 1024 * 1024 + 1024
    omega
  | ⟨1, _⟩ =>
    show win4_3.index ⟨(i 0).val / 1024, hlt⟩ (1 : Fin 2) * 10 ≤ (i 1).val
      ∧ (i 1).val < win4_3.index ⟨(i 0).val / 1024, hlt⟩ (1 : Fin 2) * 10 + 10
    omega

/-- THE OUTPUT ARRAY after the call: the affine layer of the feature, weight and bias arrays as the call found them. -/
theorem output (c : Dev nD) :
    (dat4 V c).arrAt 3 cfg4.N
      = Linear.dense (V c main_v68 : S100352x64.Idx → EReal) (V c main_arg12 : S64x10.Idx → EReal)
          (V c main_arg13 : S10.Idx → EReal) :=
  (dat4 V c).arrAt_eq_of_cover 3 _ (fun t _ => flushed_eq V c t) covered

end Cert.KernelIdeal.Layer4

end
-- ==== Proof.Stages.lean ====
/-
  The host operations between the pallas calls, read over an arbitrary assignment of contents to the buffers.

  Before the first call the feature array gets 352 rows appended (`padRows128`); after each of the first four calls
  the call's output is cut back to its first 100000 rows (`cutRows64`), aggregated over the edge list, passed through
  the maximum with zero, and padded again with 352 rows (`padRows64`) for the next call; after the last call the
  output is cut back (`cutRows10`) and aggregated. None of these stretches writes an argument buffer, so each leaves
  the arguments it does not consume where they were.
-/
import proofs.«107908_j2774548873595_2_alg».proof.Proof.Gen.KernelIdeal.Launch
import proofs.«107908_j2774548873595_2_alg».proof.Proof.Model
import Idealize.ShloMosaic.Lib.StableHlo.Run

set_option maxRecDepth 16384

noncomputable section

namespace Cert.KernelIdeal.Stages

open Idealize.ShloMosaic Idealize.ShloMosaic.TcCoe Idealize.SL.Sem Idealize.ShloMosaic.StableHlo
open Cert.KernelIdeal Cert.KernelIdeal.Gen

/-- 352 rows appended below a 100000×128 array (the value in the new rows is the converted integer zero). -/
def padRows128 (h : FVec Ideal S100000x128 .f32) : FVec Ideal S100352x128 .f32 :=
  pad S100352x128 ![0, 0] ![352, 0] ![0, 0] h (sitofp (F := Ideal) .f32 (constantI S_ 32 0#32))
    pads_S100000x128_S100352x128_03520_000 h_S_

/-- 352 rows appended below a 100000×64 array. -/
def padRows64 (h : FVec Ideal S100000x64 .f32) : FVec Ideal S100352x64 .f32 :=
  pad S100352x64 ![0, 0] ![352, 0] ![0, 0] h (sitofp (F := Ideal) .f32 (constantI S_ 32 0#32))
    pads_S100000x64_S100352x64_03520_000 h_S_

/-- The first 100000 rows of a 100352×64 array. -/
def cutRows64 (y : FVec Ideal S100352x64 .f32) : FVec Ideal S100000x64 .f32 :=
  extractStridedSlice S100000x64 ![0, 0] y slices_S100352x64_S100000x64_0_0

/-- The first 100000 rows of a 100352×10 array. -/
def cutRows10 (y : FVec Ideal S100352x10 .f32) : FVec Ideal S100000x10 .f32 :=
  extractStridedSlice S100000x10 ![0, 0] y slices_S100352x10_S100000x10_0_0

/-! The two programs gather and scatter with the same dimension numbers. -/

theorem gather64_eq : gather_S100000x64_S1600000x1_S1600000x64_1_0_n_n_0_1_164
    = Cert.ReferenceIdeal.gather_S100000x64_S1600000x1_S1600000x64_1_0_n_n_0_1_164 := rfl
theorem scatter64_eq : scatter_S100000x64_S1600000x1_S1600000x64_1_0_0_1
    = Cert.ReferenceIdeal.scatter_S100000x64_S1600000x1_S1600000x64_1_0_0_1 := rfl
theorem gather10_eq : gather_S100000x10_S1600000x1_S1600000x10_1_0_n_n_0_1_110
    = Cert.ReferenceIdeal.gather_S100000x10_S1600000x1_S1600000x10_1_0_n_n_0_1_110 := rfl
theorem scatter10_eq : scatter_S100000x10_S1600000x1_S1600000x10_1_0_0_1
    = Cert.ReferenceIdeal.scatter_S100000x10_S1600000x1_S1600000x10_1_0_0_1 := rfl

variable (Wv : Valuation τ sig (Elt Ideal))

/-! ## Before the first call -/

/-- The first call's feature operand: the feature argument with 352 rows appended. -/
theorem before0 :
    StableHlo.after hostOps0_1 (StableHlo.after hostOps0 Wv) (Proc.devRef .tc main_v0) = padRows128 (Wv (Proc.devRef .tc main_arg0)) := by
  dsimp only [hostOps0, hostOps0_1]
  after_results_simp
  rfl

theorem before0_arg1 :
    StableHlo.after hostOps0_1 (StableHlo.after hostOps0 Wv) (Proc.devRef .tc main_arg1) = Wv (Proc.devRef .tc main_arg1) := by
  dsimp only [hostOps0, hostOps0_1]
  after_results
theorem before0_arg2 :
    StableHlo.after hostOps0_1 (StableHlo.after hostOps0 Wv) (Proc.devRef .tc main_arg2) = Wv (Proc.devRef .tc main_arg2) := by
  dsimp only [hostOps0, hostOps0_1]
  after_results
theorem before0_arg3 :
    StableHlo.after hostOps0_1 (StableHlo.after hostOps0 Wv) (Proc.devRef .tc main_arg3) = Wv (Proc.devRef .tc main_arg3) := by
  dsimp only [hostOps0, hostOps0_1]
  after_results
theorem before0_arg4 :
    StableHlo.after hostOps0_1 (StableHlo.after hostOps0 Wv) (Proc.devRef .tc main_arg4) = Wv (Proc.devRef .tc main_arg4) := by
  dsimp only [hostOps0, hostOps0_1]
  after_results
theorem before0_arg5 :
    StableHlo.after hostOps0_1 (StableHlo.after hostOps0 Wv) (Proc.devRef .tc main_arg5) = Wv (Proc.devRef .tc main_arg5) := by
  dsimp only [hostOps0, hostOps0_1]
  after_results
theorem before0_arg6 :
    StableHlo.after hostOps0_1 (StableHlo.after hostOps0 Wv) (Proc.devRef .tc main_arg6) = Wv (Proc.devRef .tc main_arg6) := by
  dsimp only [hostOps0, hostOps0_1]
  after_results
theorem before0_arg7 :
    StableHlo.after hostOps0_1 (StableHlo.after hostOps0 Wv) (Proc.devRef .tc main_arg7) = Wv (Proc.devRef .tc main_arg7) := by
  dsimp only [hostOps0, hostOps0_1]
  after_results
theorem before0_arg8 :
    StableHlo.after hostOps0_1 (StableHlo.after hostOps0 Wv) (Proc.devRef .tc main_arg8) = Wv (Proc.devRef .tc main_arg8) := by
  dsimp only [hostOps0, hostOps0_1]
  after_results
theorem before0_arg9 :
    StableHlo.after hostOps0_1 (StableHlo.after hostOps0 Wv) (Proc.devRef .tc main_arg9) = Wv (Proc.devRef .tc main_arg9) := by
  dsimp only [hostOps0, hostOps0_1]
  after_results
theorem before0_arg10 :
    StableHlo.after hostOps0_1 (StableHlo.after hostOps0 Wv) (Proc.devRef .tc main_arg10) = Wv (Proc.devRef .tc main_arg10) := by
  dsimp only [hostOps0, hostOps0_1]
  after_results
theorem before0_arg11 :
    StableHlo.after hostOps0_1 (StableHlo.after hostOps0 Wv) (Proc.devRef .tc main_arg11) = Wv (Proc.devRef .tc main_arg11) := by
  dsimp only [hostOps0, hostOps0_1]
  after_results
theorem before0_arg12 :
    StableHlo.after hostOps0_1 (StableHlo.after hostOps0 Wv) (Proc.devRef .tc main_arg12) = Wv (Proc.devRef .tc main_arg12) := by
  dsimp only [hostOps0, hostOps0_1]
  after_results
theorem before0_arg13 :
    StableHlo.after hostOps0_1 (StableHlo.after hostOps0 Wv) (Proc.devRef .tc main_arg13) = Wv (Proc.devRef .tc main_arg13) := by
  dsimp only [hostOps0, hostOps0_1]
  after_results

/-! ## Between call 0 and call 1 -/

/-- The aggregation stretch: the previous call's output cut back to the nodes' rows and aggregated over the edges. -/
theorem agg_after0 :
    StableHlo.after hostOps1 Wv (Proc.devRef .tc main_v15)
      = Gcn.agg64 (Wv (Proc.devRef .tc main_arg1)) (Wv (Proc.devRef .tc main_arg2)) (Wv (Proc.devRef .tc main_arg3)) (cutRows64 (Wv (Proc.devRef .tc main_v1))) := by
  dsimp only [hostOps1]
  after_results_simp
  unfold Gcn.agg64 cutRows64
  rw [scatter64_eq, gather64_eq]

/-- The clipping stretch: the maximum with zero of what it finds in the aggregate's buffer. -/
theorem relu_after0 :
    StableHlo.after hostOps1_1 Wv (Proc.devRef .tc main_v16) = Gcn.relu64 (Wv (Proc.devRef .tc main_v15)) := by
  dsimp only [hostOps1_1]
  after_results_simp
  rfl

/-- The padding stretch: 352 rows appended to what it finds in the clipped features' buffer. -/
theorem pad_before1 :
    StableHlo.after hostOps1_3 (StableHlo.after hostOps1_2 Wv) (Proc.devRef .tc main_v17) = padRows64 (Wv (Proc.devRef .tc main_v16)) := by
  dsimp only [hostOps1_2, hostOps1_3]
  after_results_simp
  rfl

/-- Call 1's feature operand: the previous call's output cut back, aggregated, clipped at zero and padded again. -/
theorem between1 :
    StableHlo.after hostOps1_3 (StableHlo.after hostOps1_2 (StableHlo.after hostOps1_1 (StableHlo.after hostOps1 Wv))) (Proc.devRef .tc main_v17)
      = padRows64 (Gcn.relu64 (Gcn.agg64 (Wv (Proc.devRef .tc main_arg1)) (Wv (Proc.devRef .tc main_arg2)) (Wv (Proc.devRef .tc main_arg3))
          (cutRows64 (Wv (Proc.devRef .tc main_v1))))) :=
  (pad_before1 (StableHlo.after hostOps1_1 (StableHlo.after hostOps1 Wv))).trans
    (congrArg padRows64 ((relu_after0 (StableHlo.after hostOps1 Wv)).trans
      (congrArg Gcn.relu64 (agg_after0 Wv))))

theorem between1_arg1 :
    StableHlo.after hostOps1_3 (StableHlo.after hostOps1_2 (StableHlo.after hostOps1_1 (StableHlo.after hostOps1 Wv))) (Proc.devRef .tc main_arg1) = Wv (Proc.devRef .tc main_arg1) := by
  dsimp only [hostOps1, hostOps1_1, hostOps1_2, hostOps1_3]
  after_results
theorem between1_arg2 :
    StableHlo.after hostOps1_3 (StableHlo.after hostOps1_2 (StableHlo.after hostOps1_1 (StableHlo.after hostOps1 Wv))) (Proc.devRef .tc main_arg2) = Wv (Proc.devRef .tc main_arg2) := by
  dsimp only [hostOps1, hostOps1_1, hostOps1_2, hostOps1_3]
  after_results
theorem between1_arg3 :
    StableHlo.after hostOps1_3 (StableHlo.after hostOps1_2 (StableHlo.after hostOps1_1 (StableHlo.after hostOps1 Wv))) (Proc.devRef .tc main_arg3) = Wv (Proc.devRef .tc main_arg3) := by
  dsimp only [hostOps1, hostOps1_1, hostOps1_2, hostOps1_3]
  after_results
theorem between1_arg6 :
    StableHlo.after hostOps1_3 (StableHlo.after hostOps1_2 (StableHlo.after hostOps1_1 (StableHlo.after hostOps1 Wv))) (Proc.devRef .tc main_arg6) = Wv (Proc.devRef .tc main_arg6) := by
  dsimp only [hostOps1, hostOps1_1, hostOps1_2, hostOps1_3]
  after_results
theorem between1_arg7 :
    StableHlo.after hostOps1_3 (StableHlo.after hostOps1_2 (StableHlo.after hostOps1_1 (StableHlo.after hostOps1 Wv))) (Proc.devRef .tc main_arg7) = Wv (Proc.devRef .tc main_arg7) := by
  dsimp only [hostOps1, hostOps1_1, hostOps1_2, hostOps1_3]
  after_results
theorem between1_arg8 :
    StableHlo.after hostOps1_3 (StableHlo.after hostOps1_2 (StableHlo.after hostOps1_1 (StableHlo.after hostOps1 Wv))) (Proc.devRef .tc main_arg8) = Wv (Proc.devRef .tc main_arg8) := by
  dsimp only [hostOps1, hostOps1_1, hostOps1_2, hostOps1_3]
  after_results
theorem between1_arg9 :
    StableHlo.after hostOps1_3 (StableHlo.after hostOps1_2 (StableHlo.after hostOps1_1 (StableHlo.after hostOps1 Wv))) (Proc.devRef .tc main_arg9) = Wv (Proc.devRef .tc main_arg9) := by
  dsimp only [hostOps1, hostOps1_1, hostOps1_2, hostOps1_3]
  after_results
theorem between1_arg10 :
    StableHlo.after hostOps1_3 (StableHlo.after hostOps1_2 (StableHlo.after hostOps1_1 (StableHlo.after hostOps1 Wv))) (Proc.devRef .tc main_arg10) = Wv (Proc.devRef .tc main_arg10) := by
  dsimp only [hostOps1, hostOps1_1, hostOps1_2, hostOps1_3]
  after_results
theorem between1_arg11 :
    StableHlo.after hostOps1_3 (StableHlo.after hostOps1_2 (StableHlo.after hostOps1_1 (StableHlo.after hostOps1 Wv))) (Proc.devRef .tc main_arg11) = Wv (Proc.devRef .tc main_arg11) := by
  dsimp only [hostOps1, hostOps1_1, hostOps1_2, hostOps1_3]
  after_results
theorem between1_arg12 :
    StableHlo.after hostOps1_3 (StableHlo.after hostOps1_2 (StableHlo.after hostOps1_1 (StableHlo.after hostOps1 Wv))) (Proc.devRef .tc main_arg12) = Wv (Proc.devRef .tc main_arg12) := by
  dsimp only [hostOps1, hostOps1_1, hostOps1_2, hostOps1_3]
  after_results
theorem between1_arg13 :
    StableHlo.after hostOps1_3 (StableHlo.after hostOps1_2 (StableHlo.after hostOps1_1 (StableHlo.after hostOps1 Wv))) (Proc.devRef .tc main_arg13) = Wv (Proc.devRef .tc main_arg13) := by
  dsimp only [hostOps1, hostOps1_1, hostOps1_2, hostOps1_3]
  after_results

/-! ## Between call 1 and call 2 -/

/-- The aggregation stretch: the previous call's output cut back to the nodes' rows and aggregated over the edges. -/
theorem agg_after1 :
    StableHlo.after hostOps2 Wv (Proc.devRef .tc main_v32)
      = Gcn.agg64 (Wv (Proc.devRef .tc main_arg1)) (Wv (Proc.devRef .tc main_arg2)) (Wv (Proc.devRef .tc main_arg3)) (cutRows64 (Wv (Proc.devRef .tc main_v18))) := by
  dsimp only [hostOps2]
  after_results_simp
  unfold Gcn.agg64 cutRows64
  rw [scatter64_eq, gather64_eq]

/-- The clipping stretch: the maximum with zero of what it finds in the aggregate's buffer. -/
theorem relu_after1 :
    StableHlo.after hostOps2_1 Wv (Proc.devRef .tc main_v33) = Gcn.relu64 (Wv (Proc.devRef .tc main_v32)) := by
  dsimp only [hostOps2_1]
  after_results_simp
  rfl

/-- The padding stretch: 352 rows appended to what it finds in the clipped features' buffer. -/
theorem pad_before2 :
    StableHlo.after hostOps2_3 (StableHlo.after hostOps2_2 Wv) (Proc.devRef .tc main_v34) = padRows64 (Wv (Proc.devRef .tc main_v33)) := by
  dsimp only [hostOps2_2, hostOps2_3]
  after_results_simp
  rfl

/-- Call 2's feature operand: the previous call's output cut back, aggregated, clipped at zero and padded again. -/
theorem between2 :
    StableHlo.after hostOps2_3 (StableHlo.after hostOps2_2 (StableHlo.after hostOps2_1 (StableHlo.after hostOps2 Wv))) (Proc.devRef .tc main_v34)
      = padRows64 (Gcn.relu64 (Gcn.agg64 (Wv (Proc.devRef .tc main_arg1)) (Wv (Proc.devRef .tc main_arg2)) (Wv (Proc.devRef .tc main_arg3))
          (cutRows64 (Wv (Proc.devRef .tc main_v18))))) :=
  (pad_before2 (StableHlo.after hostOps2_1 (StableHlo.after hostOps2 Wv))).trans
    (congrArg padRows64 ((relu_after1 (StableHlo.after hostOps2 Wv)).trans
      (congrArg Gcn.relu64 (agg_after1 Wv))))

theorem between2_arg1 :
    StableHlo.after hostOps2_3 (StableHlo.after hostOps2_2 (StableHlo.after hostOps2_1 (StableHlo.after hostOps2 Wv))) (Proc.devRef .tc main_arg1) = Wv (Proc.devRef .tc main_arg1) := by
  dsimp only [hostOps2, hostOps2_1, hostOps2_2, hostOps2_3]
  after_results
theorem between2_arg2 :
    StableHlo.after hostOps2_3 (StableHlo.after hostOps2_2 (StableHlo.after hostOps2_1 (StableHlo.after hostOps2 Wv))) (Proc.devRef .tc main_arg2) = Wv (Proc.devRef .tc main_arg2) := by
  dsimp only [hostOps2, hostOps2_1, hostOps2_2, hostOps2_3]
  after_results
theorem between2_arg3 :
    StableHlo.after hostOps2_3 (StableHlo.after hostOps2_2 (StableHlo.after hostOps2_1 (StableHlo.after hostOps2 Wv))) (Proc.devRef .tc main_arg3) = Wv (Proc.devRef .tc main_arg3) := by
  dsimp only [hostOps2, hostOps2_1, hostOps2_2, hostOps2_3]
  after_results
theorem between2_arg8 :
    StableHlo.after hostOps2_3 (StableHlo.after hostOps2_2 (StableHlo.after hostOps2_1 (StableHlo.after hostOps2 Wv))) (Proc.devRef .tc main_arg8) = Wv (Proc.devRef .tc main_arg8) := by
  dsimp only [hostOps2, hostOps2_1, hostOps2_2, hostOps2_3]
  after_results
theorem between2_arg9 :
    StableHlo.after hostOps2_3 (StableHlo.after hostOps2_2 (StableHlo.after hostOps2_1 (StableHlo.after hostOps2 Wv))) (Proc.devRef .tc main_arg9) = Wv (Proc.devRef .tc main_arg9) := by
  dsimp only [hostOps2, hostOps2_1, hostOps2_2, hostOps2_3]
  after_results
theorem between2_arg10 :
    StableHlo.after hostOps2_3 (StableHlo.after hostOps2_2 (StableHlo.after hostOps2_1 (StableHlo.after hostOps2 Wv))) (Proc.devRef .tc main_arg10) = Wv (Proc.devRef .tc main_arg10) := by
  dsimp only [hostOps2, hostOps2_1, hostOps2_2, hostOps2_3]
  after_results
theorem between2_arg11 :
    StableHlo.after hostOps2_3 (StableHlo.after hostOps2_2 (StableHlo.after hostOps2_1 (StableHlo.after hostOps2 Wv))) (Proc.devRef .tc main_arg11) = Wv (Proc.devRef .tc main_arg11) := by
  dsimp only [hostOps2, hostOps2_1, hostOps2_2, hostOps2_3]
  after_results
theorem between2_arg12 :
    StableHlo.after hostOps2_3 (StableHlo.after hostOps2_2 (StableHlo.after hostOps2_1 (StableHlo.after hostOps2 Wv))) (Proc.devRef .tc main_arg12) = Wv (Proc.devRef .tc main_arg12) := by
  dsimp only [hostOps2, hostOps2_1, hostOps2_2, hostOps2_3]
  after_results
theorem between2_arg13 :
    StableHlo.after hostOps2_3 (StableHlo.after hostOps2_2 (StableHlo.after hostOps2_1 (StableHlo.after hostOps2 Wv))) (Proc.devRef .tc main_arg13) = Wv (Proc.devRef .tc main_arg13) := by
  dsimp only [hostOps2, hostOps2_1, hostOps2_2, hostOps2_3]
  after_results

/-! ## Between call 2 and call 3 -/

/-- The aggregation stretch: the previous call's output cut back to the nodes' rows and aggregated over the edges. -/
theorem agg_after2 :
    StableHlo.after hostOps3 Wv (Proc.devRef .tc main_v49)
      = Gcn.agg64 (Wv (Proc.devRef .tc main_arg1)) (Wv (Proc.devRef .tc main_arg2)) (Wv (Proc.devRef .tc main_arg3)) (cutRows64 (Wv (Proc.devRef .tc main_v35))) := by
  dsimp only [hostOps3]
  after_results_simp
  unfold Gcn.agg64 cutRows64
  rw [scatter64_eq, gather64_eq]

/-- The clipping stretch: the maximum with zero of what it finds in the aggregate's buffer. -/
theorem relu_after2 :
    StableHlo.after hostOps3_1 Wv (Proc.devRef .tc main_v50) = Gcn.relu64 (Wv (Proc.devRef .tc main_v49)) := by
  dsimp only [hostOps3_1]
  after_results_simp
  rfl

/-- The padding stretch: 352 rows appended to what it finds in the clipped features' buffer. -/
theorem pad_before3 :
    StableHlo.after hostOps3_3 (StableHlo.after hostOps3_2 Wv) (Proc.devRef .tc main_v51) = padRows64 (Wv (Proc.devRef .tc main_v50)) := by
  dsimp only [hostOps3_2, hostOps3_3]
  after_results_simp
  rfl

/-- Call 3's feature operand: the previous call's output cut back, aggregated, clipped at zero and padded again. -/
theorem between3 :
    StableHlo.after hostOps3_3 (StableHlo.after hostOps3_2 (StableHlo.after hostOps3_1 (StableHlo.after hostOps3 Wv))) (Proc.devRef .tc main_v51)
      = padRows64 (Gcn.relu64 (Gcn.agg64 (Wv (Proc.devRef .tc main_arg1)) (Wv (Proc.devRef .tc main_arg2)) (Wv (Proc.devRef .tc main_arg3))
          (cutRows64 (Wv (Proc.devRef .tc main_v35))))) :=
  (pad_before3 (StableHlo.after hostOps3_1 (StableHlo.after hostOps3 Wv))).trans
    (congrArg padRows64 ((relu_after2 (StableHlo.after hostOps3 Wv)).trans
      (congrArg Gcn.relu64 (agg_after2 Wv))))

theorem between3_arg1 :
    StableHlo.after hostOps3_3 (StableHlo.after hostOps3_2 (StableHlo.after hostOps3_1 (StableHlo.after hostOps3 Wv))) (Proc.devRef .tc main_arg1) = Wv (Proc.devRef .tc main_arg1) := by
  dsimp only [hostOps3, hostOps3_1, hostOps3_2, hostOps3_3]
  after_results
theorem between3_arg2 :
    StableHlo.after hostOps3_3 (StableHlo.after hostOps3_2 (StableHlo.after hostOps3_1 (StableHlo.after hostOps3 Wv))) (Proc.devRef .tc main_arg2) = Wv (Proc.devRef .tc main_arg2) := by
  dsimp only [hostOps3, hostOps3_1, hostOps3_2, hostOps3_3]
  after_results
theorem between3_arg3 :
    StableHlo.after hostOps3_3 (StableHlo.after hostOps3_2 (StableHlo.after hostOps3_1 (StableHlo.after hostOps3 Wv))) (Proc.devRef .tc main_arg3) = Wv (Proc.devRef .tc main_arg3) := by
  dsimp only [hostOps3, hostOps3_1, hostOps3_2, hostOps3_3]
  after_results
theorem between3_arg10 :
    StableHlo.after hostOps3_3 (StableHlo.after hostOps3_2 (StableHlo.after hostOps3_1 (StableHlo.after hostOps3 Wv))) (Proc.devRef .tc main_arg10) = Wv (Proc.devRef .tc main_arg10) := by
  dsimp only [hostOps3, hostOps3_1, hostOps3_2, hostOps3_3]
  after_results
theorem between3_arg11 :
    StableHlo.after hostOps3_3 (StableHlo.after hostOps3_2 (StableHlo.after hostOps3_1 (StableHlo.after hostOps3 Wv))) (Proc.devRef .tc main_arg11) = Wv (Proc.devRef .tc main_arg11) := by
  dsimp only [hostOps3, hostOps3_1, hostOps3_2, hostOps3_3]
  after_results
theorem between3_arg12 :
    StableHlo.after hostOps3_3 (StableHlo.after hostOps3_2 (StableHlo.after hostOps3_1 (StableHlo.after hostOps3 Wv))) (Proc.devRef .tc main_arg12) = Wv (Proc.devRef .tc main_arg12) := by
  dsimp only [hostOps3, hostOps3_1, hostOps3_2, hostOps3_3]
  after_results
theorem between3_arg13 :
    StableHlo.after hostOps3_3 (StableHlo.after hostOps3_2 (StableHlo.after hostOps3_1 (StableHlo.after hostOps3 Wv))) (Proc.devRef .tc main_arg13) = Wv (Proc.devRef .tc main_arg13) := by
  dsimp only [hostOps3, hostOps3_1, hostOps3_2, hostOps3_3]
  after_results

/-! ## Between call 3 and call 4 -/

/-- The aggregation stretch: the previous call's output cut back to the nodes' rows and aggregated over the edges. -/
theorem agg_after3 :
    StableHlo.after hostOps4 Wv (Proc.devRef .tc main_v66)
      = Gcn.agg64 (Wv (Proc.devRef .tc main_arg1)) (Wv (Proc.devRef .tc main_arg2)) (Wv (Proc.devRef .tc main_arg3)) (cutRows64 (Wv (Proc.devRef .tc main_v52))) := by
  dsimp only [hostOps4]
  after_results_simp
  unfold Gcn.agg64 cutRows64
  rw [scatter64_eq, gather64_eq]

/-- The clipping stretch: the maximum with zero of what it finds in the aggregate's buffer. -/
theorem relu_after3 :
    StableHlo.after hostOps4_1 Wv (Proc.devRef .tc main_v67) = Gcn.relu64 (Wv (Proc.devRef .tc main_v66)) := by
  dsimp only [hostOps4_1]
  after_results_simp
  rfl

/-- The padding stretch: 352 rows appended to what it finds in the clipped features' buffer. -/
theorem pad_before4 :
    StableHlo.after hostOps4_3 (StableHlo.after hostOps4_2 Wv) (Proc.devRef .tc main_v68) = padRows64 (Wv (Proc.devRef .tc main_v67)) := by
  dsimp only [hostOps4_2, hostOps4_3]
  after_results_simp
  rfl

/-- Call 4's feature operand: the previous call's output cut back, aggregated, clipped at zero and padded again. -/
theorem between4 :
    StableHlo.after hostOps4_3 (StableHlo.after hostOps4_2 (StableHlo.after hostOps4_1 (StableHlo.after hostOps4 Wv))) (Proc.devRef .tc main_v68)
      = padRows64 (Gcn.relu64 (Gcn.agg64 (Wv (Proc.devRef .tc main_arg1)) (Wv (Proc.devRef .tc main_arg2)) (Wv (Proc.devRef .tc main_arg3))
          (cutRows64 (Wv (Proc.devRef .tc main_v52))))) :=
  (pad_before4 (StableHlo.after hostOps4_1 (StableHlo.after hostOps4 Wv))).trans
    (congrArg padRows64 ((relu_after3 (StableHlo.after hostOps4 Wv)).trans
      (congrArg Gcn.relu64 (agg_after3 Wv))))

theorem between4_arg1 :
    StableHlo.after hostOps4_3 (StableHlo.after hostOps4_2 (StableHlo.after hostOps4_1 (StableHlo.after hostOps4 Wv))) (Proc.devRef .tc main_arg1) = Wv (Proc.devRef .tc main_arg1) := by
  dsimp only [hostOps4, hostOps4_1, hostOps4_2, hostOps4_3]
  after_results
theorem between4_arg2 :
    StableHlo.after hostOps4_3 (StableHlo.after hostOps4_2 (StableHlo.after hostOps4_1 (StableHlo.after hostOps4 Wv))) (Proc.devRef .tc main_arg2) = Wv (Proc.devRef .tc main_arg2) := by
  dsimp only [hostOps4, hostOps4_1, hostOps4_2, hostOps4_3]
  after_results
theorem between4_arg3 :
    StableHlo.after hostOps4_3 (StableHlo.after hostOps4_2 (StableHlo.after hostOps4_1 (StableHlo.after hostOps4 Wv))) (Proc.devRef .tc main_arg3) = Wv (Proc.devRef .tc main_arg3) := by
  dsimp only [hostOps4, hostOps4_1, hostOps4_2, hostOps4_3]
  after_results
theorem between4_arg12 :
    StableHlo.after hostOps4_3 (StableHlo.after hostOps4_2 (StableHlo.after hostOps4_1 (StableHlo.after hostOps4 Wv))) (Proc.devRef .tc main_arg12) = Wv (Proc.devRef .tc main_arg12) := by
  dsimp only [hostOps4, hostOps4_1, hostOps4_2, hostOps4_3]
  after_results
theorem between4_arg13 :
    StableHlo.after hostOps4_3 (StableHlo.after hostOps4_2 (StableHlo.after hostOps4_1 (StableHlo.after hostOps4 Wv))) (Proc.devRef .tc main_arg13) = Wv (Proc.devRef .tc main_arg13) := by
  dsimp only [hostOps4, hostOps4_1, hostOps4_2, hostOps4_3]
  after_results

/-! ## After the last call -/

/-- The program's result: the last call's output cut back and aggregated. -/
theorem after4 :
    StableHlo.after hostOps5 Wv (Proc.devRef .tc main_v83)
      = Gcn.agg10 (Wv (Proc.devRef .tc main_arg1)) (Wv (Proc.devRef .tc main_arg2)) (Wv (Proc.devRef .tc main_arg3)) (cutRows10 (Wv (Proc.devRef .tc main_v69))) := by
  dsimp only [hostOps5]
  after_results_simp
  unfold Gcn.agg10 cutRows10
  rw [scatter10_eq, gather10_eq]

end Cert.KernelIdeal.Stages

end
-- ==== Proof.Fold.lean ====
/-
  The contents of the kernel program's buffers at every call boundary, from the launch memory to the result.

  Write h₀ = x for the feature argument and, for k = 1 … 4,

      hₖ = relu (agg (lin hₖ₋₁ Wₖ₋₁ bₖ₋₁))

  for the features after k rounds of the network. By induction along @main:
    * call k is entered with its feature operand at hₖ with 352 rows appended, its weight and bias operands at the
      arguments Wₖ, bₖ, and every argument not yet consumed still as launched;
    * call k returns with its output array at the affine layer of those three arrays (the per-call module);
    * the host operations that follow cut the output back to 100000 rows — which, since a row of the layer depends
      on the same row of its input alone, is the layer lin hₖ Wₖ bₖ of the unpadded features —, aggregate, clip at
      zero and pad again, which is the next call's entry condition.
  After call 4 the output is cut back and aggregated: the network of the arguments.
-/
import proofs.«107908_j2774548873595_2_alg».proof.Proof.Gen.KernelIdeal.Frame
import proofs.«107908_j2774548873595_2_alg».proof.Proof.Layer0
import proofs.«107908_j2774548873595_2_alg».proof.Proof.Layer1
import proofs.«107908_j2774548873595_2_alg».proof.Proof.Layer2
import proofs.«107908_j2774548873595_2_alg».proof.Proof.Layer3
import proofs.«107908_j2774548873595_2_alg».proof.Proof.Layer4
import proofs.«107908_j2774548873595_2_alg».proof.Proof.Stages
import proofs.«107908_j2774548873595_2_alg».proof.Proof.Model
import proofs.«107908_j2774548873595_2_alg».proof.Proof.LibLinear

set_option maxRecDepth 16384

noncomputable section

namespace Cert.KernelIdeal.Fold

open Idealize.ShloMosaic Idealize.ShloMosaic.TcCoe Idealize.SL.Sem Idealize.ShloMosaic.StableHlo
open Cert.KernelIdeal Cert.KernelIdeal.Gen Cert.KernelIdeal.Stages

/-! ## Padding, the layer, cutting back -/

/-- The 128 → 64 layer of the padded features, cut back to the nodes' rows, is the host's layer of the features. -/
theorem cut_dense_pad128 (x : FVec Ideal S100000x128 .f32) (W : FVec Ideal S128x64 .f32) (b : FVec Ideal S64 .f32) :
    cutRows64 (Linear.dense (padRows128 x) W b) = Gcn.lin128 x W b := by
  unfold cutRows64 padRows128 Gcn.lin128
  rw [Linear.slice_dense_pad x _ W b _ _ _ (by decide)]
  exact (Linear.host_eq _ rfl (by decide) none x W b _ _).symm

/-- The same for the 64 → 64 layer. -/
theorem cut_dense_pad64 (h : FVec Ideal S100000x64 .f32) (W : FVec Ideal S64x64 .f32) (b : FVec Ideal S64 .f32) :
    cutRows64 (Linear.dense (padRows64 h) W b) = Gcn.lin64 h W b := by
  unfold cutRows64 padRows64 Gcn.lin64
  rw [Linear.slice_dense_pad h _ W b _ _ _ (by decide)]
  exact (Linear.host_eq _ rfl (by decide) none h W b _ _).symm

/-- The same for the 64 → 10 layer. -/
theorem cut_dense_pad10 (h : FVec Ideal S100000x64 .f32) (W : FVec Ideal S64x10 .f32) (b : FVec Ideal S10 .f32) :
    cutRows10 (Linear.dense (padRows64 h) W b) = Gcn.lin10 h W b := by
  unfold cutRows10 padRows64 Gcn.lin10
  rw [Linear.slice_dense_pad h _ W b _ _ _ (by decide)]
  exact (Linear.host_eq _ rfl (by decide) none h W b _ _).symm

variable (m : (ℓ : Loc nD τ sig) → Buf (Elt Ideal) ℓ) (ρ : Dev nD → PrngReg) (c : Dev nD)

/-! ## The features after each round -/

/-- After one round. -/
def h1 : FVec Ideal S100000x64 .f32 := Gcn.relu64 (Gcn.agg64 (m ((c : Thread nD τ).loc main_arg1)) (m ((c : Thread nD τ).loc main_arg2)) (m ((c : Thread nD τ).loc main_arg3)) (Gcn.lin128 (m ((c : Thread nD τ).loc main_arg0)) (m ((c : Thread nD τ).loc main_arg4)) (m ((c : Thread nD τ).loc main_arg5))))
/-- After two rounds. -/
def h2 : FVec Ideal S100000x64 .f32 := Gcn.relu64 (Gcn.agg64 (m ((c : Thread nD τ).loc main_arg1)) (m ((c : Thread nD τ).loc main_arg2)) (m ((c : Thread nD τ).loc main_arg3)) (Gcn.lin64 (h1 m c) (m ((c : Thread nD τ).loc main_arg6)) (m ((c : Thread nD τ).loc main_arg7))))
/-- After three rounds. -/
def h3 : FVec Ideal S100000x64 .f32 := Gcn.relu64 (Gcn.agg64 (m ((c : Thread nD τ).loc main_arg1)) (m ((c : Thread nD τ).loc main_arg2)) (m ((c : Thread nD τ).loc main_arg3)) (Gcn.lin64 (h2 m c) (m ((c : Thread nD τ).loc main_arg8)) (m ((c : Thread nD τ).loc main_arg9))))
/-- After four rounds. -/
def h4 : FVec Ideal S100000x64 .f32 := Gcn.relu64 (Gcn.agg64 (m ((c : Thread nD τ).loc main_arg1)) (m ((c : Thread nD τ).loc main_arg2)) (m ((c : Thread nD τ).loc main_arg3)) (Gcn.lin64 (h3 m c) (m ((c : Thread nD τ).loc main_arg10)) (m ((c : Thread nD τ).loc main_arg11))))

/-! ## The arguments not yet consumed are as launched at every boundary -/

theorem W2_arg1 : W2 m ρ c (Proc.devRef .tc main_arg1) = (m ((c : Thread nD τ).loc main_arg1)) := before0_arg1 (W0 m ρ c)
theorem W2_arg2 : W2 m ρ c (Proc.devRef .tc main_arg2) = (m ((c : Thread nD τ).loc main_arg2)) := before0_arg2 (W0 m ρ c)
theorem W2_arg3 : W2 m ρ c (Proc.devRef .tc main_arg3) = (m ((c : Thread nD τ).loc main_arg3)) := before0_arg3 (W0 m ρ c)
theorem W2_arg4 : W2 m ρ c (Proc.devRef .tc main_arg4) = (m ((c : Thread nD τ).loc main_arg4)) := before0_arg4 (W0 m ρ c)
theorem W2_arg5 : W2 m ρ c (Proc.devRef .tc main_arg5) = (m ((c : Thread nD τ).loc main_arg5)) := before0_arg5 (W0 m ρ c)
theorem W2_arg6 : W2 m ρ c (Proc.devRef .tc main_arg6) = (m ((c : Thread nD τ).loc main_arg6)) := before0_arg6 (W0 m ρ c)
theorem W2_arg7 : W2 m ρ c (Proc.devRef .tc main_arg7) = (m ((c : Thread nD τ).loc main_arg7)) := before0_arg7 (W0 m ρ c)
theorem W2_arg8 : W2 m ρ c (Proc.devRef .tc main_arg8) = (m ((c : Thread nD τ).loc main_arg8)) := before0_arg8 (W0 m ρ c)
theorem W2_arg9 : W2 m ρ c (Proc.devRef .tc main_arg9) = (m ((c : Thread nD τ).loc main_arg9)) := before0_arg9 (W0 m ρ c)
theorem W2_arg10 : W2 m ρ c (Proc.devRef .tc main_arg10) = (m ((c : Thread nD τ).loc main_arg10)) := before0_arg10 (W0 m ρ c)
theorem W2_arg11 : W2 m ρ c (Proc.devRef .tc main_arg11) = (m ((c : Thread nD τ).loc main_arg11)) := before0_arg11 (W0 m ρ c)
theorem W2_arg12 : W2 m ρ c (Proc.devRef .tc main_arg12) = (m ((c : Thread nD τ).loc main_arg12)) := before0_arg12 (W0 m ρ c)
theorem W2_arg13 : W2 m ρ c (Proc.devRef .tc main_arg13) = (m ((c : Thread nD τ).loc main_arg13)) := before0_arg13 (W0 m ρ c)
theorem W3_arg1 : W3 m ρ c (Proc.devRef .tc main_arg1) = (m ((c : Thread nD τ).loc main_arg1)) := (W3_of_ne m ρ c main_arg1 (by decide)).trans (W2_arg1 m ρ c)
theorem W3_arg2 : W3 m ρ c (Proc.devRef .tc main_arg2) = (m ((c : Thread nD τ).loc main_arg2)) := (W3_of_ne m ρ c main_arg2 (by decide)).trans (W2_arg2 m ρ c)
theorem W3_arg3 : W3 m ρ c (Proc.devRef .tc main_arg3) = (m ((c : Thread nD τ).loc main_arg3)) := (W3_of_ne m ρ c main_arg3 (by decide)).trans (W2_arg3 m ρ c)
theorem W3_arg6 : W3 m ρ c (Proc.devRef .tc main_arg6) = (m ((c : Thread nD τ).loc main_arg6)) := (W3_of_ne m ρ c main_arg6 (by decide)).trans (W2_arg6 m ρ c)
theorem W3_arg7 : W3 m ρ c (Proc.devRef .tc main_arg7) = (m ((c : Thread nD τ).loc main_arg7)) := (W3_of_ne m ρ c main_arg7 (by decide)).trans (W2_arg7 m ρ c)
theorem W3_arg8 : W3 m ρ c (Proc.devRef .tc main_arg8) = (m ((c : Thread nD τ).loc main_arg8)) := (W3_of_ne m ρ c main_arg8 (by decide)).trans (W2_arg8 m ρ c)
theorem W3_arg9 : W3 m ρ c (Proc.devRef .tc main_arg9) = (m ((c : Thread nD τ).loc main_arg9)) := (W3_of_ne m ρ c main_arg9 (by decide)).trans (W2_arg9 m ρ c)
theorem W3_arg10 : W3 m ρ c (Proc.devRef .tc main_arg10) = (m ((c : Thread nD τ).loc main_arg10)) := (W3_of_ne m ρ c main_arg10 (by decide)).trans (W2_arg10 m ρ c)
theorem W3_arg11 : W3 m ρ c (Proc.devRef .tc main_arg11) = (m ((c : Thread nD τ).loc main_arg11)) := (W3_of_ne m ρ c main_arg11 (by decide)).trans (W2_arg11 m ρ c)
theorem W3_arg12 : W3 m ρ c (Proc.devRef .tc main_arg12) = (m ((c : Thread nD τ).loc main_arg12)) := (W3_of_ne m ρ c main_arg12 (by decide)).trans (W2_arg12 m ρ c)
theorem W3_arg13 : W3 m ρ c (Proc.devRef .tc main_arg13) = (m ((c : Thread nD τ).loc main_arg13)) := (W3_of_ne m ρ c main_arg13 (by decide)).trans (W2_arg13 m ρ c)
theorem W7_arg1 : W7 m ρ c (Proc.devRef .tc main_arg1) = (m ((c : Thread nD τ).loc main_arg1)) := (between1_arg1 (W3 m ρ c)).trans (W3_arg1 m ρ c)
theorem W7_arg2 : W7 m ρ c (Proc.devRef .tc main_arg2) = (m ((c : Thread nD τ).loc main_arg2)) := (between1_arg2 (W3 m ρ c)).trans (W3_arg2 m ρ c)
theorem W7_arg3 : W7 m ρ c (Proc.devRef .tc main_arg3) = (m ((c : Thread nD τ).loc main_arg3)) := (between1_arg3 (W3 m ρ c)).trans (W3_arg3 m ρ c)
theorem W7_arg6 : W7 m ρ c (Proc.devRef .tc main_arg6) = (m ((c : Thread nD τ).loc main_arg6)) := (between1_arg6 (W3 m ρ c)).trans (W3_arg6 m ρ c)
theorem W7_arg7 : W7 m ρ c (Proc.devRef .tc main_arg7) = (m ((c : Thread nD τ).loc main_arg7)) := (between1_arg7 (W3 m ρ c)).trans (W3_arg7 m ρ c)
theorem W7_arg8 : W7 m ρ c (Proc.devRef .tc main_arg8) = (m ((c : Thread nD τ).loc main_arg8)) := (between1_arg8 (W3 m ρ c)).trans (W3_arg8 m ρ c)
theorem W7_arg9 : W7 m ρ c (Proc.devRef .tc main_arg9) = (m ((c : Thread nD τ).loc main_arg9)) := (between1_arg9 (W3 m ρ c)).trans (W3_arg9 m ρ c)
theorem W7_arg10 : W7 m ρ c (Proc.devRef .tc main_arg10) = (m ((c : Thread nD τ).loc main_arg10)) := (between1_arg10 (W3 m ρ c)).trans (W3_arg10 m ρ c)
theorem W7_arg11 : W7 m ρ c (Proc.devRef .tc main_arg11) = (m ((c : Thread nD τ).loc main_arg11)) := (between1_arg11 (W3 m ρ c)).trans (W3_arg11 m ρ c)
theorem W7_arg12 : W7 m ρ c (Proc.devRef .tc main_arg12) = (m ((c : Thread nD τ).loc main_arg12)) := (between1_arg12 (W3 m ρ c)).trans (W3_arg12 m ρ c)
theorem W7_arg13 : W7 m ρ c (Proc.devRef .tc main_arg13) = (m ((c : Thread nD τ).loc main_arg13)) := (between1_arg13 (W3 m ρ c)).trans (W3_arg13 m ρ c)
theorem W8_arg1 : W8 m ρ c (Proc.devRef .tc main_arg1) = (m ((c : Thread nD τ).loc main_arg1)) := (W8_of_ne m ρ c main_arg1 (by decide)).trans (W7_arg1 m ρ c)
theorem W8_arg2 : W8 m ρ c (Proc.devRef .tc main_arg2) = (m ((c : Thread nD τ).loc main_arg2)) := (W8_of_ne m ρ c main_arg2 (by decide)).trans (W7_arg2 m ρ c)
theorem W8_arg3 : W8 m ρ c (Proc.devRef .tc main_arg3) = (m ((c : Thread nD τ).loc main_arg3)) := (W8_of_ne m ρ c main_arg3 (by decide)).trans (W7_arg3 m ρ c)
theorem W8_arg8 : W8 m ρ c (Proc.devRef .tc main_arg8) = (m ((c : Thread nD τ).loc main_arg8)) := (W8_of_ne m ρ c main_arg8 (by decide)).trans (W7_arg8 m ρ c)
theorem W8_arg9 : W8 m ρ c (Proc.devRef .tc main_arg9) = (m ((c : Thread nD τ).loc main_arg9)) := (W8_of_ne m ρ c main_arg9 (by decide)).trans (W7_arg9 m ρ c)
theorem W8_arg10 : W8 m ρ c (Proc.devRef .tc main_arg10) = (m ((c : Thread nD τ).loc main_arg10)) := (W8_of_ne m ρ c main_arg10 (by decide)).trans (W7_arg10 m ρ c)
theorem W8_arg11 : W8 m ρ c (Proc.devRef .tc main_arg11) = (m ((c : Thread nD τ).loc main_arg11)) := (W8_of_ne m ρ c main_arg11 (by decide)).trans (W7_arg11 m ρ c)
theorem W8_arg12 : W8 m ρ c (Proc.devRef .tc main_arg12) = (m ((c : Thread nD τ).loc main_arg12)) := (W8_of_ne m ρ c main_arg12 (by decide)).trans (W7_arg12 m ρ c)
theorem W8_arg13 : W8 m ρ c (Proc.devRef .tc main_arg13) = (m ((c : Thread nD τ).loc main_arg13)) := (W8_of_ne m ρ c main_arg13 (by decide)).trans (W7_arg13 m ρ c)
theorem W12_arg1 : W12 m ρ c (Proc.devRef .tc main_arg1) = (m ((c : Thread nD τ).loc main_arg1)) := (between2_arg1 (W8 m ρ c)).trans (W8_arg1 m ρ c)
theorem W12_arg2 : W12 m ρ c (Proc.devRef .tc main_arg2) = (m ((c : Thread nD τ).loc main_arg2)) := (between2_arg2 (W8 m ρ c)).trans (W8_arg2 m ρ c)
theorem W12_arg3 : W12 m ρ c (Proc.devRef .tc main_arg3) = (m ((c : Thread nD τ).loc main_arg3)) := (between2_arg3 (W8 m ρ c)).trans (W8_arg3 m ρ c)
theorem W12_arg8 : W12 m ρ c (Proc.devRef .tc main_arg8) = (m ((c : Thread nD τ).loc main_arg8)) := (between2_arg8 (W8 m ρ c)).trans (W8_arg8 m ρ c)
theorem W12_arg9 : W12 m ρ c (Proc.devRef .tc main_arg9) = (m ((c : Thread nD τ).loc main_arg9)) := (between2_arg9 (W8 m ρ c)).trans (W8_arg9 m ρ c)
theorem W12_arg10 : W12 m ρ c (Proc.devRef .tc main_arg10) = (m ((c : Thread nD τ).loc main_arg10)) := (between2_arg10 (W8 m ρ c)).trans (W8_arg10 m ρ c)
theorem W12_arg11 : W12 m ρ c (Proc.devRef .tc main_arg11) = (m ((c : Thread nD τ).loc main_arg11)) := (between2_arg11 (W8 m ρ c)).trans (W8_arg11 m ρ c)
theorem W12_arg12 : W12 m ρ c (Proc.devRef .tc main_arg12) = (m ((c : Thread nD τ).loc main_arg12)) := (between2_arg12 (W8 m ρ c)).trans (W8_arg12 m ρ c)
theorem W12_arg13 : W12 m ρ c (Proc.devRef .tc main_arg13) = (m ((c : Thread nD τ).loc main_arg13)) := (between2_arg13 (W8 m ρ c)).trans (W8_arg13 m ρ c)
theorem W13_arg1 : W13 m ρ c (Proc.devRef .tc main_arg1) = (m ((c : Thread nD τ).loc main_arg1)) := (W13_of_ne m ρ c main_arg1 (by decide)).trans (W12_arg1 m ρ c)
theorem W13_arg2 : W13 m ρ c (Proc.devRef .tc main_arg2) = (m ((c : Thread nD τ).loc main_arg2)) := (W13_of_ne m ρ c main_arg2 (by decide)).trans (W12_arg2 m ρ c)
theorem W13_arg3 : W13 m ρ c (Proc.devRef .tc main_arg3) = (m ((c : Thread nD τ).loc main_arg3)) := (W13_of_ne m ρ c main_arg3 (by decide)).trans (W12_arg3 m ρ c)
theorem W13_arg10 : W13 m ρ c (Proc.devRef .tc main_arg10) = (m ((c : Thread nD τ).loc main_arg10)) := (W13_of_ne m ρ c main_arg10 (by decide)).trans (W12_arg10 m ρ c)
theorem W13_arg11 : W13 m ρ c (Proc.devRef .tc main_arg11) = (m ((c : Thread nD τ).loc main_arg11)) := (W13_of_ne m ρ c main_arg11 (by decide)).trans (W12_arg11 m ρ c)
theorem W13_arg12 : W13 m ρ c (Proc.devRef .tc main_arg12) = (m ((c : Thread nD τ).loc main_arg12)) := (W13_of_ne m ρ c main_arg12 (by decide)).trans (W12_arg12 m ρ c)
theorem W13_arg13 : W13 m ρ c (Proc.devRef .tc main_arg13) = (m ((c : Thread nD τ).loc main_arg13)) := (W13_of_ne m ρ c main_arg13 (by decide)).trans (W12_arg13 m ρ c)
theorem W17_arg1 : W17 m ρ c (Proc.devRef .tc main_arg1) = (m ((c : Thread nD τ).loc main_arg1)) := (between3_arg1 (W13 m ρ c)).trans (W13_arg1 m ρ c)
theorem W17_arg2 : W17 m ρ c (Proc.devRef .tc main_arg2) = (m ((c : Thread nD τ).loc main_arg2)) := (between3_arg2 (W13 m ρ c)).trans (W13_arg2 m ρ c)
theorem W17_arg3 : W17 m ρ c (Proc.devRef .tc main_arg3) = (m ((c : Thread nD τ).loc main_arg3)) := (between3_arg3 (W13 m ρ c)).trans (W13_arg3 m ρ c)
theorem W17_arg10 : W17 m ρ c (Proc.devRef .tc main_arg10) = (m ((c : Thread nD τ).loc main_arg10)) := (between3_arg10 (W13 m ρ c)).trans (W13_arg10 m ρ c)
theorem W17_arg11 : W17 m ρ c (Proc.devRef .tc main_arg11) = (m ((c : Thread nD τ).loc main_arg11)) := (between3_arg11 (W13 m ρ c)).trans (W13_arg11 m ρ c)
theorem W17_arg12 : W17 m ρ c (Proc.devRef .tc main_arg12) = (m ((c : Thread nD τ).loc main_arg12)) := (between3_arg12 (W13 m ρ c)).trans (W13_arg12 m ρ c)
theorem W17_arg13 : W17 m ρ c (Proc.devRef .tc main_arg13) = (m ((c : Thread nD τ).loc main_arg13)) := (between3_arg13 (W13 m ρ c)).trans (W13_arg13 m ρ c)
theorem W18_arg1 : W18 m ρ c (Proc.devRef .tc main_arg1) = (m ((c : Thread nD τ).loc main_arg1)) := (W18_of_ne m ρ c main_arg1 (by decide)).trans (W17_arg1 m ρ c)
theorem W18_arg2 : W18 m ρ c (Proc.devRef .tc main_arg2) = (m ((c : Thread nD τ).loc main_arg2)) := (W18_of_ne m ρ c main_arg2 (by decide)).trans (W17_arg2 m ρ c)
theorem W18_arg3 : W18 m ρ c (Proc.devRef .tc main_arg3) = (m ((c : Thread nD τ).loc main_arg3)) := (W18_of_ne m ρ c main_arg3 (by decide)).trans (W17_arg3 m ρ c)
theorem W18_arg12 : W18 m ρ c (Proc.devRef .tc main_arg12) = (m ((c : Thread nD τ).loc main_arg12)) := (W18_of_ne m ρ c main_arg12 (by decide)).trans (W17_arg12 m ρ c)
theorem W18_arg13 : W18 m ρ c (Proc.devRef .tc main_arg13) = (m ((c : Thread nD τ).loc main_arg13)) := (W18_of_ne m ρ c main_arg13 (by decide)).trans (W17_arg13 m ρ c)
theorem W22_arg1 : W22 m ρ c (Proc.devRef .tc main_arg1) = (m ((c : Thread nD τ).loc main_arg1)) := (between4_arg1 (W18 m ρ c)).trans (W18_arg1 m ρ c)
theorem W22_arg2 : W22 m ρ c (Proc.devRef .tc main_arg2) = (m ((c : Thread nD τ).loc main_arg2)) := (between4_arg2 (W18 m ρ c)).trans (W18_arg2 m ρ c)
theorem W22_arg3 : W22 m ρ c (Proc.devRef .tc main_arg3) = (m ((c : Thread nD τ).loc main_arg3)) := (between4_arg3 (W18 m ρ c)).trans (W18_arg3 m ρ c)
theorem W22_arg12 : W22 m ρ c (Proc.devRef .tc main_arg12) = (m ((c : Thread nD τ).loc main_arg12)) := (between4_arg12 (W18 m ρ c)).trans (W18_arg12 m ρ c)
theorem W22_arg13 : W22 m ρ c (Proc.devRef .tc main_arg13) = (m ((c : Thread nD τ).loc main_arg13)) := (between4_arg13 (W18 m ρ c)).trans (W18_arg13 m ρ c)
theorem W23_arg1 : W23 m ρ c (Proc.devRef .tc main_arg1) = (m ((c : Thread nD τ).loc main_arg1)) := (W23_of_ne m ρ c main_arg1 (by decide)).trans (W22_arg1 m ρ c)
theorem W23_arg2 : W23 m ρ c (Proc.devRef .tc main_arg2) = (m ((c : Thread nD τ).loc main_arg2)) := (W23_of_ne m ρ c main_arg2 (by decide)).trans (W22_arg2 m ρ c)
theorem W23_arg3 : W23 m ρ c (Proc.devRef .tc main_arg3) = (m ((c : Thread nD τ).loc main_arg3)) := (W23_of_ne m ρ c main_arg3 (by decide)).trans (W22_arg3 m ρ c)

/-! ## The feature operand at each call's entry and the output array at its exit -/

theorem W2_in : W2 m ρ c (Proc.devRef .tc main_v0) = padRows128 (m ((c : Thread nD τ).loc main_arg0)) := before0 (W0 m ρ c)

theorem W3_out : W3 m ρ c (Proc.devRef .tc main_v1) = Linear.dense (padRows128 (m ((c : Thread nD τ).loc main_arg0))) (m ((c : Thread nD τ).loc main_arg4)) (m ((c : Thread nD τ).loc main_arg5)) :=
  ((W3_arr m ρ c 3).trans (Layer0.output (V2 m ρ) c)).trans (by
    show Linear.dense (W2 m ρ c (Proc.devRef .tc main_v0)) (W2 m ρ c (Proc.devRef .tc main_arg4)) (W2 m ρ c (Proc.devRef .tc main_arg5)) = _
    rw [W2_in, W2_arg4, W2_arg5])

theorem W7_in : W7 m ρ c (Proc.devRef .tc main_v17) = padRows64 (h1 m c) := by
  refine (between1 (W3 m ρ c)).trans ?_
  rw [W3_arg1, W3_arg2, W3_arg3, W3_out, cut_dense_pad128]
  unfold h1
  rfl

theorem W8_out : W8 m ρ c (Proc.devRef .tc main_v18) = Linear.dense (padRows64 (h1 m c)) (m ((c : Thread nD τ).loc main_arg6)) (m ((c : Thread nD τ).loc main_arg7)) :=
  ((W8_arr m ρ c 3).trans (Layer1.output (V7 m ρ) c)).trans (by
    show Linear.dense (W7 m ρ c (Proc.devRef .tc main_v17)) (W7 m ρ c (Proc.devRef .tc main_arg6)) (W7 m ρ c (Proc.devRef .tc main_arg7)) = _
    rw [W7_in, W7_arg6, W7_arg7])

theorem W12_in : W12 m ρ c (Proc.devRef .tc main_v34) = padRows64 (h2 m c) := by
  refine (between2 (W8 m ρ c)).trans ?_
  rw [W8_arg1, W8_arg2, W8_arg3, W8_out, cut_dense_pad64]
  unfold h2
  rfl

theorem W13_out : W13 m ρ c (Proc.devRef .tc main_v35) = Linear.dense (padRows64 (h2 m c)) (m ((c : Thread nD τ).loc main_arg8)) (m ((c : Thread nD τ).loc main_arg9)) :=
  ((W13_arr m ρ c 3).trans (Layer2.output (V12 m ρ) c)).trans (by
    show Linear.dense (W12 m ρ c (Proc.devRef .tc main_v34)) (W12 m ρ c (Proc.devRef .tc main_arg8)) (W12 m ρ c (Proc.devRef .tc main_arg9)) = _
    rw [W12_in, W12_arg8, W12_arg9])

theorem W17_in : W17 m ρ c (Proc.devRef .tc main_v51) = padRows64 (h3 m c) := by
  refine (between3 (W13 m ρ c)).trans ?_
  rw [W13_arg1, W13_arg2, W13_arg3, W13_out, cut_dense_pad64]
  unfold h3
  rfl

theorem W18_out : W18 m ρ c (Proc.devRef .tc main_v52) = Linear.dense (padRows64 (h3 m c)) (m ((c : Thread nD τ).loc main_arg10)) (m ((c : Thread nD τ).loc main_arg11)) :=
  ((W18_arr m ρ c 3).trans (Layer3.output (V17 m ρ) c)).trans (by
    show Linear.dense (W17 m ρ c (Proc.devRef .tc main_v51)) (W17 m ρ c (Proc.devRef .tc main_arg10)) (W17 m ρ c (Proc.devRef .tc main_arg11)) = _
    rw [W17_in, W17_arg10, W17_arg11])

theorem W22_in : W22 m ρ c (Proc.devRef .tc main_v68) = padRows64 (h4 m c) := by
  refine (between4 (W18 m ρ c)).trans ?_
  rw [W18_arg1, W18_arg2, W18_arg3, W18_out, cut_dense_pad64]
  unfold h4
  rfl

theorem W23_out : W23 m ρ c (Proc.devRef .tc main_v69) = Linear.dense (padRows64 (h4 m c)) (m ((c : Thread nD τ).loc main_arg12)) (m ((c : Thread nD τ).loc main_arg13)) :=
  ((W23_arr m ρ c 3).trans (Layer4.output (V22 m ρ) c)).trans (by
    show Linear.dense (W22 m ρ c (Proc.devRef .tc main_v68)) (W22 m ρ c (Proc.devRef .tc main_arg12)) (W22 m ρ c (Proc.devRef .tc main_arg13)) = _
    rw [W22_in, W22_arg12, W22_arg13])

/-- THE RESULT: the last boundary's contents at the result buffer are the network of the argument arrays. -/
theorem result : W24 m ρ c (Proc.devRef .tc main_v83)
    = Gcn.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (after4 (W23 m ρ c)).trans ?_
  rw [W23_arg1, W23_arg2, W23_arg3, W23_out, cut_dense_pad10]
  unfold Gcn.net h4 h3 h2 h1
  rfl

end Cert.KernelIdeal.Fold

end
-- ==== Proof.lean ====
/-
  The kernel program — five Pallas affine layers over node rows padded to a multiple of the row tile, each followed by
  the edge-list aggregation in plain host operations — computes, at the ideal values, the reference's graph network.

  Both programs are four rounds of  relu ∘ agg ∘ lin  and a last round  agg ∘ lin  (Proof/Model.lean). They differ
  only in `lin`: the reference takes h · W + b over the 100000 node rows directly; the kernel appends 352 zero rows,
  computes the layer tile by tile on the matrix unit (the changes of float format are the identity on ideal values;
  the product into a zero accumulator is the plain sum over the contracted coordinate), and cuts the result back to
  100000 rows. A row of the layer depends on the same row of its input alone, so the two agree entry by entry —
  as extended reals, with no use of finiteness: no law beyond the definitions of the two products is needed.

  The pieces: Proof/LibLinear.lean (the layer at an entry, both spellings; padding and cutting back),
  Proof/Layer0 … Layer4.lean (each call's output array is the layer of its operand arrays), Proof/Stages.lean (the
  host operations between the calls), Proof/Fold.lean (the contents at every boundary of @main, by induction along
  it), Proof/KernelRun.lean (the kernel program's run with its result named), Proof/Model.lean (the reference's run
  is the network). The three frames are the generated ones; the ideal pass rewrote nothing, so `preserves` is trivial.
-/
import proofs.«107908_j2774548873595_2_alg».proof.Defs
import proofs.«107908_j2774548873595_2_alg».proof.Proof.Gen.Kernel
import proofs.«107908_j2774548873595_2_alg».proof.Proof.Gen.Kernel.Skeleton
import proofs.«107908_j2774548873595_2_alg».proof.Proof.Gen.Kernel.Launch
import proofs.«107908_j2774548873595_2_alg».proof.Proof.Gen.Kernel.Points
import proofs.«107908_j2774548873595_2_alg».proof.Proof.Gen.Kernel.Frame
import proofs.«107908_j2774548873595_2_alg».proof.Proof.Gen.KernelIdeal
import proofs.«107908_j2774548873595_2_alg».proof.Proof.Gen.KernelIdeal.Skeleton
import proofs.«107908_j2774548873595_2_alg».proof.Proof.Gen.KernelIdeal.Launch
import proofs.«107908_j2774548873595_2_alg».proof.Proof.Gen.KernelIdeal.Points
import proofs.«107908_j2774548873595_2_alg».proof.Proof.Gen.KernelIdeal.Frame
import proofs.«107908_j2774548873595_2_alg».proof.Proof.Gen.ReferenceIdeal
import proofs.«107908_j2774548873595_2_alg».proof.Proof.Gen.Pre_finite_inputs
import proofs.«107908_j2774548873595_2_alg».proof.Proof.Gen.ReferenceIdeal.Run
import proofs.«107908_j2774548873595_2_alg».proof.Proof.Model
import proofs.«107908_j2774548873595_2_alg».proof.Proof.KernelRun
import proofs.«107908_j2774548873595_2_alg».proof.Proof.Fold
import Idealize.ShloMosaic.Adequacy
import Idealize.ShloMosaic.Init

noncomputable section

namespace Cert.Proof

open Idealize.ShloMosaic Idealize.SL.Sem

/-- The idealized kernel program runs, ends with its result at the network of its argument arrays, and leaves the
    arguments as launched: the run's result is the last boundary's contents, which the induction along @main
    identifies. -/
theorem kernel_value (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v83)
          = Cert.Gcn.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
        ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
        ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
        ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
        ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
        ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)) :=
  (θ_run Cert.KernelIdeal.defs _ _).mono
    (fun r h c => ⟨(h c).1.trans (Cert.KernelIdeal.Fold.result m ρ c), (h c).2⟩)
    (Cert.KernelIdeal.Run.run_main m ρ)

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with their result at the network of those
    arguments. -/
theorem algebraic : Cert.algebraic_KernelIdeal_ReferenceIdeal := by
  intro m ρ m' ρ' _ hagree
  refine ⟨_, kernel_value m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12, e13⟩ := hagree c
  rw [Cert.Gcn.reference_result, e0, e1, e2, e3, e4, e5, e6, e7, e8, e9, e10, e11, e12, e13]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
